-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x256 : Shape := ⟨3, ![16, 512, 256]⟩
abbrev S8x256 : Shape := ⟨2, ![8, 256]⟩
abbrev S8x1 : Shape := ⟨2, ![8, 1]⟩
abbrev S_ : Shape := ⟨0, ![]⟩

class Facts : Prop where
  bcast_S_S16x512x256 : S_.BroadcastsInDim S16x512x256 (![] : Fin 0 → Fin S16x512x256.rank)
  reducesTo_S16x512x256_S_d0_1_2 : S16x512x256.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S8x1 : S_.BroadcastsInDim S8x1 (![] : Fin 0 → Fin S8x1.rank)
  reducesTo_S8x1_S_d0_1 : S8x1.ReducesTo [0, 1] S_

variable [Facts]

def fn_part1 {F : FTy → Type} [FloatOps F] (main_v13 : IVec S_ 1) (main_v16 : IVec S8x1 1) : IVec S_ 1 :=
  let main_c_5 : IVec S_ 1 := constantI S_ 1 1#1
  let main_v17 : IVec S_ 1 := (fun x v => Host.reduce IntOp.andi x v reducesTo_S8x1_S_d0_1 h_S_) main_v16 main_c_5
  let main_v18 : IVec S_ 1 := andi main_v13 main_v17
  main_v18

def fn {F : FTy → Type} [FloatOps F] (main_arg0 : FVec F S16x512x256 .f32) (main_arg1 : FVec F S8x256 .f32) (main_arg2 : FVec F S8x256 .f32) (main_arg3 : FVec F S8x1 .f32) : IVec S_ 1 :=
  let main_v0 : FVec F S16x512x256 .f32 := Host.absf main_arg0
  let main_cst : FVec F S_ .f32 := constant S_ .f32 0x7F800000#32
  let main_v1 : FVec F S16x512x256 .f32 := broadcastInDim S16x512x256 ![] bcast_S_S16x512x256 main_cst
  let main_v2 : IVec S16x512x256 1 := cmpf .olt main_v0 main_v1
  let main_c : IVec S_ 1 := constantI S_ 1 1#1
  let main_v3 : IVec S_ 1 := (fun x v => Host.reduce IntOp.andi x v reducesTo_S16x512x256_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S8x256 .f32 := Host.absf main_arg2
  let main_cst_2 : FVec F S_ .f32 := constant S_ .f32 0x7F800000#32
  let main_v10 : FVec F S8x256 .f32 := broadcastInDim S8x256 ![] bcast_S_S8x256 main_cst_2
  let main_v11 : IVec S8x256 1 := cmpf .olt main_v9 main_v10
  let main_c_3 : IVec S_ 1 := constantI S_ 1 1#1
  let main_v12 : IVec S_ 1 := (fun x v => Host.reduce IntOp.andi x v reducesTo_S8x256_S_d0_1 h_S_) main_v11 main_c_3
  let main_v13 : IVec S_ 1 := andi main_v8 main_v12
  let main_v14 : FVec F S8x1 .f32 := Host.absf main_arg3
  let main_cst_4 : FVec F S_ .f32 := constant S_ .f32 0x7F800000#32
  let main_v15 : FVec F S8x1 .f32 := broadcastInDim S8x1 ![] bcast_S_S8x1 main_cst_4
  let main_v16 : IVec S8x1 1 := cmpf .olt main_v14 main_v15
  fn_part1 (F := F) main_v13 main_v16
-- ==== Kernel.lean ====
abbrev S16x512x256 : Shape := ⟨3, ![16, 512, 256]⟩
abbrev S8x256 : Shape := ⟨2, ![8, 256]⟩
abbrev S8x1 : Shape := ⟨2, ![8, 1]⟩
abbrev S_ : Shape := ⟨0, ![]⟩
abbrev S8 : Shape := ⟨1, ![8]⟩
abbrev S1x512x256 : Shape := ⟨3, ![1, 512, 256]⟩
abbrev S512x256 : Shape := ⟨2, ![512, 256]⟩
abbrev S8x1x256 : Shape := ⟨3, ![8, 1, 256]⟩
abbrev S8x512x256 : Shape := ⟨3, ![8, 512, 256]⟩
abbrev S8x1x1 : Shape := ⟨3, ![8, 1, 1]⟩

abbrev nBuf : Space → Nat
  | .hbm => 32
  | .vmem => 14
  | .smem => 0
  | _ => 0

abbrev bufTy : (tb : Table) → Fin (tcTables nBuf tb) → BufTy
  | .hbm, ⟨0, _⟩ => ⟨S16x512x256, .f32⟩
  | .hbm, ⟨1, _⟩ => ⟨S8x256, .f32⟩
  | .hbm, ⟨2, _⟩ => ⟨S8x256, .f32⟩
  | .hbm, ⟨3, _⟩ => ⟨S8x1, .f32⟩
  | .hbm, ⟨4, _⟩ => ⟨S_, .f32⟩
  | .hbm, ⟨5, _⟩ => ⟨S8x256, .f32⟩
  | .hbm, ⟨6, _⟩ => ⟨S8x256, .f32⟩
  | .hbm, ⟨7, _⟩ => ⟨S8x256, .f32⟩
  | .hbm, ⟨8, _⟩ => ⟨S8x256, .f32⟩
  | .hbm, ⟨9, _⟩ => ⟨S8x256, .i1⟩
  | .hbm, ⟨10, _⟩ => ⟨S8x256, .f32⟩
  | .hbm, ⟨11, _⟩ => ⟨S8x256, .f32⟩
  | .hbm, ⟨12, _⟩ => ⟨S8x256, .f32⟩
  | .hbm, ⟨13, _⟩ => ⟨S8x256, .f32⟩
  | .hbm, ⟨14, _⟩ => ⟨S8x256, .f32⟩
  | .hbm, ⟨15, _⟩ => ⟨S8x256, .f32⟩
  | .hbm, ⟨16, _⟩ => ⟨S8x256, .f32⟩
  | .hbm, ⟨17, _⟩ => ⟨S8x256, .f32⟩
  | .hbm, ⟨18, _⟩ => ⟨S_, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S8x1, .f32⟩
  | .hbm, ⟨24, _⟩ => ⟨S8x1, .f32⟩
  | .hbm, ⟨25, _⟩ => ⟨S8x1, .f32⟩
  | .hbm, ⟨26, _⟩ => ⟨S_, .f32⟩
  | .hbm, ⟨27, _⟩ => ⟨S8, .f32⟩
  | .hbm, ⟨28, _⟩ => ⟨S8x1, .f32⟩
  | .hbm, ⟨29, _⟩ => ⟨S8x1, .f32⟩
  | .hbm, ⟨30, _⟩ => ⟨S8x256, .f32⟩
  | .hbm, ⟨31, _⟩ => ⟨S16x512x256, .f32⟩
  | .local _ .vmem, ⟨0, _⟩ => ⟨S1x512x256, .f32⟩
  | .local _ .vmem, ⟨1, _⟩ => ⟨S1x512x256, .f32⟩
  | .local _ .vmem, ⟨2, _⟩ => ⟨S8x256, .f32⟩
  | .local _ .vmem, ⟨3, _⟩ => ⟨S8x256, .f32⟩
  | .local _ .vmem, ⟨4, _⟩ => ⟨S8x1, .f32⟩
  | .local _ .vmem, ⟨5, _⟩ => ⟨S8x256, .f32⟩
  | .local _ .vmem, ⟨6, _⟩ => ⟨S1x512x256, .f32⟩
  | .local _ .vmem, ⟨7, _⟩ => ⟨S1x512x256, .f32⟩
  | .local _ .vmem, ⟨8, _⟩ => ⟨S8x256, .f32⟩
  | .local _ .vmem, ⟨9, _⟩ => ⟨S8x256, .f32⟩
  | .local _ .vmem, ⟨10, _⟩ => ⟨S8x1, .f32⟩
  | .local _ .vmem, ⟨11, _⟩ => ⟨S8x256, .f32⟩
  | .local _ .vmem, ⟨12, _⟩ => ⟨S1x512x256, .f32⟩
  | .local _ .vmem, ⟨13, _⟩ => ⟨S1x512x256, .f32⟩
  | _, _ => ⟨S16x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S8x256 : S_.BroadcastsInDim S8x256 (![] : Fin 0 → Fin S8x256.rank)
  reducesTo_S8x1_S8_d1 : S8x1.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  inb_S8x256_S8x256_0_0 : ∀ a, (![0, 0] : Fin 2 → Nat) a + S8x256.size a ≤ S8x256.size a
  h_S8x256 : 0 < S8x256.numel
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S8x256_S8x256 : S8x256.ShapeCasts S8x256
  inb_S8x1_S8x1_0_0 : ∀ a, (![0, 0] : Fin 2 → Nat) a + S8x1.size a ≤ S8x1.size a
  h_S8x1 : 0 < S8x1.numel
  shapeCasts_S8x1_S8x1 : S8x1.ShapeCasts S8x1
  shapeCasts_S512x256_S1x512x256 : S512x256.ShapeCasts S1x512x256
  shapeCasts_S8x256_S8x1x256 : S8x256.ShapeCasts S8x1x256
  broadcasts_S1x512x256_S8x512x256 : S1x512x256.Broadcasts S8x512x256
  broadcasts_S8x1x256_S8x512x256 : S8x1x256.Broadcasts S8x512x256
  shapeCasts_S8x1_S8x1x1 : S8x1.ShapeCasts S8x1x1
  broadcasts_S8x1x1_S8x512x256 : S8x1x1.Broadcasts S8x512x256
  reduces_S8x512x256_S512x256 : S8x512x256.Reduces [0] S512x256
  reduces_S8x512x256_S8x256 : S8x512x256.Reduces [1] S8x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S16x512x256.size a
  hwx0_0 : ∀ i : grid0.Coords, EltTy.bits .f32 = 32 ∨ (Rect.block (s := S16x512x256) S1x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S8x256.size a
  hwx0_1 : ∀ i : grid0.Coords, EltTy.bits .f32 = 32 ∨ (Rect.block (s := S8x256) S8x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S8x256.size a
  hwx0_2 : ∀ i : grid0.Coords, EltTy.bits .f32 = 32 ∨ (Rect.block (s := S8x256) S8x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S8x1.size a
  hwx0_3 : ∀ i : grid0.Coords, EltTy.bits .f32 = 32 ∨ (Rect.block (s := S8x1) S8x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S8x256.size a
  hwx0_4 : ∀ i : grid0.Coords, EltTy.bits .f32 = 32 ∨ (Rect.block (s := S8x256) S8x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x256.size a ≤ S16x512x256.size a
  hwx1_0 : ∀ i : grid1.Coords, EltTy.bits .f32 = 32 ∨ (Rect.block (s := S16x512x256) S1x512x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x256.size a ≤ S8x256.size a
  hwx1_1 : ∀ i : grid1.Coords, EltTy.bits .f32 = 32 ∨ (Rect.block (s := S8x256) S8x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x256.size a ≤ S8x256.size a
  hwx1_2 : ∀ i : grid1.Coords, EltTy.bits .f32 = 32 ∨ (Rect.block (s := S8x256) S8x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x1.size a ≤ S8x1.size a
  hwx1_3 : ∀ i : grid1.Coords, EltTy.bits .f32 = 32 ∨ (Rect.block (s := S8x1) S8x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x256.size a ≤ S8x256.size a
  hwx1_4 : ∀ i : grid1.Coords, EltTy.bits .f32 = 32 ∨ (Rect.block (s := S8x256) S8x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x256.size a ≤ S16x512x256.size a
  hwx1_5 : ∀ i : grid1.Coords, EltTy.bits .f32 = 32 ∨ (Rect.block (s := S16x512x256) S1x512x256.size (cc1_transform_5 i) (hinb1_5 i)).WholeWords (EltTy.packing .f32)

variable [Facts₀]

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S8x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S8x256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S8x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S8x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S8x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x512x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16x512x256 : Shape := ⟨3, ![16, 512, 256]⟩
abbrev S8x256 : Shape := ⟨2, ![8, 256]⟩
abbrev S8x1 : Shape := ⟨2, ![8, 1]⟩
abbrev S_ : Shape := ⟨0, ![]⟩
abbrev S8 : Shape := ⟨1, ![8]⟩
abbrev S8x1x1x1 : Shape := ⟨4, ![8, 1, 1, 1]⟩
abbrev S1x16x512x256 : Shape := ⟨4, ![1, 16, 512, 256]⟩
abbrev S8x1x1x256 : Shape := ⟨4, ![8, 1, 1, 256]⟩
abbrev S8x16x512x256 : Shape := ⟨4, ![8, 16, 512, 256]⟩
abbrev S8x16x256 : Shape := ⟨3, ![8, 16, 256]⟩
abbrev S8x16x1x256 : Shape := ⟨4, ![8, 16, 1, 256]⟩

abbrev nBuf : Space → Nat
  | .hbm => 102
  | .vmem => 0
  | .smem => 0
  | _ => 0

abbrev bufTy : (tb : Table) → Fin (tcTables nBuf tb) → BufTy
  | .hbm, ⟨0, _⟩ => ⟨S16x512x256, .f32⟩
  | .hbm, ⟨1, _⟩ => ⟨S8x256, .f32⟩
  | .hbm, ⟨2, _⟩ => ⟨S8x256, .f32⟩
  | .hbm, ⟨3, _⟩ => ⟨S8x1, .f32⟩
  | .hbm, ⟨4, _⟩ => ⟨S_, .f32⟩
  | .hbm, ⟨5, _⟩ => ⟨S8x256, .f32⟩
  | .hbm, ⟨6, _⟩ => ⟨S8x256, .f32⟩
  | .hbm, ⟨7, _⟩ => ⟨S8x256, .f32⟩
  | .hbm, ⟨8, _⟩ => ⟨S8x256, .f32⟩
  | .hbm, ⟨9, _⟩ => ⟨S8x256, .i1⟩
  | .hbm, ⟨10, _⟩ => ⟨S8x256, .f32⟩
  | .hbm, ⟨11, _⟩ => ⟨S8x256, .f32⟩
  | .hbm, ⟨12, _⟩ => ⟨S8x256, .f32⟩
  | .hbm, ⟨13, _⟩ => ⟨S8x256, .f32⟩
  | .hbm, ⟨14, _⟩ => ⟨S8x256, .f32⟩
  | .hbm, ⟨15, _⟩ => ⟨S8x256, .f32⟩
  | .hbm, ⟨16, _⟩ => ⟨S8x256, .f32⟩
  | .hbm, ⟨17, _⟩ => ⟨S8x256, .f32⟩
  | .hbm, ⟨18, _⟩ => ⟨S_, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S8x1, .f32⟩
  | .hbm, ⟨24, _⟩ => ⟨S8x1, .f32⟩
  | .hbm, ⟨25, _⟩ => ⟨S8x1, .f32⟩
  | .hbm, ⟨26, _⟩ => ⟨S_, .f32⟩
  | .hbm, ⟨27, _⟩ => ⟨S8, .f32⟩
  | .hbm, ⟨28, _⟩ => ⟨S8x1, .f32⟩
  | .hbm, ⟨29, _⟩ => ⟨S8x1, .f32⟩
  | .hbm, ⟨30, _⟩ => ⟨S8, .f32⟩
  | .hbm, ⟨31, _⟩ => ⟨S8x1x1x1, .f32⟩
  | .hbm, ⟨32, _⟩ => ⟨S1x16x512x256, .f32⟩
  | .hbm, ⟨33, _⟩ => ⟨S8x1x1x256, .f32⟩
  | .hbm, ⟨34, _⟩ => ⟨S8x16x512x256, .f32⟩
  | .hbm, ⟨35, _⟩ => ⟨S8x16x512x256, .f32⟩
  | .hbm, ⟨36, _⟩ => ⟨S8x16x512x256, .f32⟩
  | .hbm, ⟨37, _⟩ => ⟨S_, .f32⟩
  | .hbm, ⟨38, _⟩ => ⟨S8x16x512x256, .f32⟩
  | .hbm, ⟨39, _⟩ => ⟨S8x16x512x256, .f32⟩
  | .hbm, ⟨40, _⟩ => ⟨S8x16x512x256, .f32⟩
  | .hbm, ⟨41, _⟩ => ⟨S8x1x1x256, .f32⟩
  | .hbm, ⟨42, _⟩ => ⟨S_, .f32⟩
  | .hbm, ⟨43, _⟩ => ⟨S8x1x1x256, .f32⟩
  | .hbm, ⟨44, _⟩ => ⟨S8x1x1x256, .f32⟩
  | .hbm, ⟨45, _⟩ => ⟨S8x16x512x256, .f32⟩
  | .hbm, ⟨46, _⟩ => ⟨S8x16x512x256, .f32⟩
  | .hbm, ⟨47, _⟩ => ⟨S8x16x512x256, .f32⟩
  | .hbm, ⟨48, _⟩ => ⟨S8x16x512x256, .f32⟩
  | .hbm, ⟨49, _⟩ => ⟨S8x16x512x256, .f32⟩
  | .hbm, ⟨50, _⟩ => ⟨S_, .f32⟩
  | .hbm, ⟨51, _⟩ => ⟨S16x512x256, .f32⟩
  | .hbm, ⟨52, _⟩ => ⟨S1x16x512x256, .f32⟩
  | .hbm, ⟨53, _⟩ => ⟨S_, .f32⟩
  | .hbm, ⟨54, _⟩ => ⟨S1x16x512x256, .f32⟩
  | .hbm, ⟨55, _⟩ => ⟨S1x16x512x256, .f32⟩
  | .hbm, ⟨56, _⟩ => ⟨S8x16x512x256, .f32⟩
  | .hbm, ⟨57, _⟩ => ⟨S8x16x512x256, .f32⟩
  | .hbm, ⟨58, _⟩ => ⟨S_, .f32⟩
  | .hbm, ⟨59, _⟩ => ⟨S8x256, .f32⟩
  | .hbm, ⟨60, _⟩ => ⟨S8x1x1x256, .f32⟩
  | .hbm, ⟨61, _⟩ => ⟨S_, .f32⟩
  | .hbm, ⟨62, _⟩ => ⟨S8x1x1x256, .f32⟩
  | .hbm, ⟨63, _⟩ => ⟨S8x1x1x256, .f32⟩
  | .hbm, ⟨64, _⟩ => ⟨S8x16x512x256, .f32⟩
  | .hbm, ⟨65, _⟩ => ⟨S8x16x512x256, .f32⟩
  | .hbm, ⟨66, _⟩ => ⟨S1x16x512x256, .f32⟩
  | .hbm, ⟨67, _⟩ => ⟨S8x16x512x256, .f32⟩
  | .hbm, ⟨68, _⟩ => ⟨S8x16x512x256, .f32⟩
  | .hbm, ⟨69, _⟩ => ⟨S_, .f32⟩
  | .hbm, ⟨70, _⟩ => ⟨S8x16x256, .f32⟩
  | .hbm, ⟨71, _⟩ => ⟨S8x16x1x256, .f32⟩
  | .hbm, ⟨72, _⟩ => ⟨S_, .f32⟩
  | .hbm, ⟨73, _⟩ => ⟨S8x16x1x256, .f32⟩
  | .hbm, ⟨74, _⟩ => ⟨S8x16x1x256, .f32⟩
  | .hbm, ⟨75, _⟩ => ⟨S1x16x512x256, .f32⟩
  | .hbm, ⟨76, _⟩ => ⟨S8x16x512x256, .f32⟩
  | .hbm, ⟨77, _⟩ => ⟨S8x16x512x256, .f32⟩
  | .hbm, ⟨78, _⟩ => ⟨S8x16x512x256, .f32⟩
  | .hbm, ⟨79, _⟩ => ⟨S8x16x512x256, .f32⟩
  | .hbm, ⟨80, _⟩ => ⟨S8x16x512x256, .f32⟩
  | .hbm, ⟨81, _⟩ => ⟨S_, .f32⟩
  | .hbm, ⟨82, _⟩ => ⟨S8x16x256, .f32⟩
  | .hbm, ⟨83, _⟩ => ⟨S8x16x1x256, .f32⟩
  | .hbm, ⟨84, _⟩ => ⟨S_, .f32⟩
  | .hbm, ⟨85, _⟩ => ⟨S8x16x1x256, .f32⟩
  | .hbm, ⟨86, _⟩ => ⟨S8x16x1x256, .f32⟩
  | .hbm, ⟨87, _⟩ => ⟨S_, .f32⟩
  | .hbm, ⟨88, _⟩ => ⟨S8x16x1x256, .f32⟩
  | .hbm, ⟨89, _⟩ => ⟨S8x16x1x256, .f32⟩
  | .hbm, ⟨90, _⟩ => ⟨S8x16x1x256, .f32⟩
  | .hbm, ⟨91, _⟩ => ⟨S8x16x512x256, .f32⟩
  | .hbm, ⟨92, _⟩ => ⟨S8x16x512x256, .f32⟩
  | .hbm, ⟨93, _⟩ => ⟨S_, .f32⟩
  | .hbm, ⟨94, _⟩ => ⟨S8x1x1x1, .f32⟩
  | .hbm, ⟨95, _⟩ => ⟨S8x1x1x1, .f32⟩
  | .hbm, ⟨96, _⟩ => ⟨S8x1x1x1, .f32⟩
  | .hbm, ⟨97, _⟩ => ⟨S8x16x512x256, .f32⟩
  | .hbm, ⟨98, _⟩ => ⟨S8x16x512x256, .f32⟩
  | .hbm, ⟨99, _⟩ => ⟨S8x16x512x256, .f32⟩
  | .hbm, ⟨100, _⟩ => ⟨S_, .f32⟩
  | .hbm, ⟨101, _⟩ => ⟨S16x512x256, .f32⟩
  | _, _ => ⟨S16x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_cst_9 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_14 : Ref sig .tc := ⟨.hbm, 100, rfl⟩
abbrev main_v68 : Ref sig .tc := ⟨.hbm, 101, rfl⟩

abbrev nD : Nat := 1
abbrev τ : Topo := Topo.v7x

variable {F : FTy → Type} [FloatOps F]

class Facts₀ : Prop where
  bcast_S_S8x256 : S_.BroadcastsInDim S8x256 (![] : Fin 0 → Fin S8x256.rank)
  reducesTo_S8x1_S8_d1 : S8x1.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  shapeCasts_S8x1_S8 : S8x1.ShapeCasts S8
  bcast_S8_S8x1x1x1_0 : S8.BroadcastsInDim S8x1x1x1 (![0] : Fin 1 → Fin S8x1x1x1.rank)
  bcast_S16x512x256_S1x16x512x256_1_2_3 : S16x512x256.BroadcastsInDim S1x16x512x256 (![1, 2, 3] : Fin 3 → Fin S1x16x512x256.rank)
  bcast_S8x256_S8x1x1x256_0_3 : S8x256.BroadcastsInDim S8x1x1x256 (![0, 3] : Fin 2 → Fin S8x1x1x256.rank)
  bcast_S1x16x512x256_S8x16x512x256_0_1_2_3 : S1x16x512x256.BroadcastsInDim S8x16x512x256 (![0, 1, 2, 3] : Fin 4 → Fin S8x16x512x256.rank)
  bcast_S8x1x1x256_S8x16x512x256_0_1_2_3 : S8x1x1x256.BroadcastsInDim S8x16x512x256 (![0, 1, 2, 3] : Fin 4 → Fin S8x16x512x256.rank)
  bcast_S_S8x16x512x256 : S_.BroadcastsInDim S8x16x512x256 (![] : Fin 0 → Fin S8x16x512x256.rank)
  bcast_S_S8x1x1x256 : S_.BroadcastsInDim S8x1x1x256 (![] : Fin 0 → Fin S8x1x1x256.rank)
  bcast_S8x1x1x1_S8x16x512x256_0_1_2_3 : S8x1x1x1.BroadcastsInDim S8x16x512x256 (![0, 1, 2, 3] : Fin 4 → Fin S8x16x512x256.rank)
  reducesTo_S8x16x512x256_S16x512x256_d0 : S8x16x512x256.ReducesTo [0] S16x512x256
  bcast_S_S1x16x512x256 : S_.BroadcastsInDim S1x16x512x256 (![] : Fin 0 → Fin S1x16x512x256.rank)
  reducesTo_S8x16x512x256_S8x256_d1_2 : S8x16x512x256.ReducesTo [1, 2] S8x256
  reducesTo_S8x16x512x256_S8x16x256_d2 : S8x16x512x256.ReducesTo [2] S8x16x256
  bcast_S8x16x256_S8x16x1x256_0_1_3 : S8x16x256.BroadcastsInDim S8x16x1x256 (![0, 1, 3] : Fin 3 → Fin S8x16x1x256.rank)
  bcast_S_S8x16x1x256 : S_.BroadcastsInDim S8x16x1x256 (![] : Fin 0 → Fin S8x16x1x256.rank)
  bcast_S8x16x1x256_S8x16x512x256_0_1_2_3 : S8x16x1x256.BroadcastsInDim S8x16x512x256 (![0, 1, 2, 3] : Fin 4 → Fin S8x16x512x256.rank)
  bcast_S_S8x1x1x1 : S_.BroadcastsInDim S8x1x1x1 (![] : Fin 0 → Fin S8x1x1x1.rank)

variable [Facts₀]

class Facts : Prop extends Facts₀ where

variable [Facts]
-- ==== Proof.KernelRun.lean ====
/-
  The idealized kernel's run with its result array named.

  The program is two launches in a row after two stretches of host operations. Its generated frame proof walks the
  TensorCore's buffer contents through the four segments — `W0` at launch, `W1` and `W2` after the host stretches
  (the softplus of the spreads and the softmax of the weights), `W3` after the first launch (the column masses
  written), `W4` after the second (the result written) — and reads the final state against `W4` at every unscoped
  buffer. Here the same walk is read at the result buffer too: the run ends with the result array at `W4`'s
  contents of it, the arguments unchanged.
-/
import proofs.«173853_j24558622998529_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents of its buffer and the four argument arrays as launched. -/
theorem run_named : θ_run defs (onTc (τ := τ) (main (F := F))) ⟨m, fun _ => 0, ρ⟩ (fun r => ∀ c : Dev nD,
      r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v11 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.RunValue

end
-- ==== Proof.Spec.lean ====
/-
  The cluster-posterior normalisation, as plain functions on the extended reals.

  A sample x (one entry of one batch row) is scored against eight clusters k with centre m k, spread v k and
  weight p k:  lik = p k · exp ((−½ · (x − m k)) · (x − m k) / (v k + ε)).  Its responsibility for cluster k is
  tau k = lik k / (Σ_k' lik k' + ε).  Summing the responsibilities over every sample of a feature column — over
  the 512 rows of a batch entry (`rowSum`) and then over the 16 batch entries (`total`) — gives the column's
  mass S k.  With that mass the normalised responsibility is hat = tau / (S + ε); per batch entry and cluster the
  two row averages  mean1 = (Σ_t hat·x) / 512  and  mean2 = (Σ_t (hat · (hat·x)) · (hat·x)) / 512  standardise
  the sample, and the result is the cluster sum of  tau / sqrt (p + ε) · (x − mean1) / sqrt (mean2 + ε).

  Everything is stated for ONE batch entry `Xb` with the column masses `Sg` as a parameter (`outB`); the whole
  result takes `Sg := total`.
-/
import Idealize.ShloMosaic.PureOps.Ideal
import Idealize.ShloMosaic.Lib.ValueIdx

noncomputable section

namespace Cert.Posterior

open Idealize.ShloMosaic

/-- The three float literals of the computation, kept as their binary words: −½, ε (the f32 nearest 0.001) and 512. -/
def negHalf : EReal := Ideal.ofBits .f32 0xBF000000#32
def eps : EReal := Ideal.ofBits .f32 0x3A83126F#32
def nRows : EReal := Ideal.ofBits .f32 0x44000000#32

section OneBatchEntry

variable (Xb : Fin 512 → Fin 256 → EReal) (M V : Fin 8 → Fin 256 → EReal) (P : Fin 8 → EReal)

/-- The weighted likelihood of cluster `k` at sample `(t, d)`. -/
def lik (k : Fin 8) (t : Fin 512) (d : Fin 256) : EReal :=
  P k * Ideal.exp (Ideal.div ((negHalf * (Xb t d - M k d)) * (Xb t d - M k d)) (V k d + eps))

/-- The responsibility of cluster `k` for sample `(t, d)`. -/
def tau (k : Fin 8) (t : Fin 512) (d : Fin 256) : EReal :=
  Ideal.div (lik Xb M V P k t d) ((∑ k' : Fin 8, lik Xb M V P k' t d) + eps)

/-- The responsibilities of cluster `k` summed over the rows of this batch entry, per feature column. -/
def rowSum (k : Fin 8) (d : Fin 256) : EReal := ∑ t : Fin 512, tau Xb M V P k t d

variable (Sg : Fin 8 → Fin 256 → EReal)

/-- The responsibility normalised by the column's mass. -/
def hat (k : Fin 8) (t : Fin 512) (d : Fin 256) : EReal := Ideal.div (tau Xb M V P k t d) (Sg k d + eps)

/-- The normalised responsibility times the sample. -/
def wx (k : Fin 8) (t : Fin 512) (d : Fin 256) : EReal := hat Xb M V P Sg k t d * Xb t d

/-- The row average of `wx`. -/
def mean1 (k : Fin 8) (d : Fin 256) : EReal := Ideal.div (∑ t : Fin 512, wx Xb M V P Sg k t d) nRows

/-- The row average of `(hat · wx) · wx`. -/
def mean2 (k : Fin 8) (d : Fin 256) : EReal :=
  Ideal.div (∑ t : Fin 512, (hat Xb M V P Sg k t d * wx Xb M V P Sg k t d) * wx Xb M V P Sg k t d) nRows

/-- The standardised sample, weighted and summed over the clusters. -/
def outB (t : Fin 512) (d : Fin 256) : EReal :=
  ∑ k : Fin 8, Ideal.div (tau Xb M V P k t d) (Ideal.sqrt (P k + eps))
    * Ideal.div (Xb t d - mean1 Xb M V P Sg k d) (Ideal.sqrt (mean2 Xb M V P Sg k d + eps))

end OneBatchEntry

section Whole

variable (X : Fin 16 → Fin 512 → Fin 256 → EReal) (M V : Fin 8 → Fin 256 → EReal) (P : Fin 8 → EReal)

/-- The column masses: the responsibilities summed over every batch entry and every row. -/
def total (k : Fin 8) (d : Fin 256) : EReal := ∑ b : Fin 16, rowSum (X b) M V P k d

/-- The whole result at `(b, t, d)`. -/
def out (b : Fin 16) (t : Fin 512) (d : Fin 256) : EReal := outB (X b) M V P (total X M V P) t d

end Whole

end Cert.Posterior

end
-- ==== Proof.Blocks.lean ====
/-
  A loaded block as a plain function of coordinates: a batch entry's [1, 512, 256] block by row and column, an
  [8, 256] table by cluster and column, the [8, 1] weights by cluster.
-/
import proofs.«173853_j24558622998529_1_alg».proof.KernelIdeal
import Idealize.ShloMosaic.PureOps.Ideal
import Idealize.ShloMosaic.Lib.ValueIdx

noncomputable section

namespace Cert.KernelIdeal.BodyValue

open Idealize.ShloMosaic Idealize.ShloMosaic.ValueIdx Cert.KernelIdeal

/-- A batch entry's block read at row `t`, column `d`. -/
def rows (x0 : Vec Ideal S1x512x256 .f32) : Fin 512 → Fin 256 → EReal := fun t d => x0 (ix3 (0 : Fin 1) t d)
/-- A cluster table read at cluster `k`, column `d`. -/
def tab (x : Vec Ideal S8x256 .f32) : Fin 8 → Fin 256 → EReal := fun k d => x (ix2 k d)
/-- The weights read at cluster `k`. -/
def col (x3 : Vec Ideal S8x1 .f32) : Fin 8 → EReal := fun k => x3 (ix2 k (0 : Fin 1))

end Cert.KernelIdeal.BodyValue

end
-- ==== Proof.Region0Value.lean ====
/-
  The first launch: the column masses after it.

  The launch walks the sixteen batch entries with ONE [8, 256] output block whose index never moves: at the first
  entry the body stores the zero block, reads it back and adds the entry's row sums of the responsibilities; at each
  later entry it adds that entry's row sums to what the entry before left; the block is written back after the last
  entry only. So the array ends holding, at cluster `k` and column `d`,
  `(((0 + s₀) + s₁) + … ) + s₁₅` with `s_b = rowSum` of batch entry `b` — on the extended reals, the sum of the
  sixteen row sums: the column mass `total`.
-/
import proofs.«173853_j24558622998529_1_alg».proof.Proof.Gen.KernelIdeal.Frame
import proofs.«173853_j24558622998529_1_alg».proof.Proof.Spec
import proofs.«173853_j24558622998529_1_alg».proof.Proof.Blocks
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem Idealize.ShloMosaic.Tactic
open Idealize.ShloMosaic.Pipeline (Dat)
open Cert.KernelIdeal Cert.KernelIdeal.Gen Cert.KernelIdeal.BodyValue

theorem hz3 : (![0, 0, 0] : Fin 3 → Nat) = fun _ => 0 := funext fun a => by fin_cases a <;> rfl
theorem hz2 : (![0, 0] : Fin 2 → Nat) = fun _ => 0 := funext fun a => by fin_cases a <;> rfl

section AnyFloat

variable {F : FTy → Type} [FloatOps F]

/-- At a later entry the body leaves, in the output's staging buffer holding `xo4`, its one covering store: the
    body's arithmetic of the four loaded blocks and `xo4`. -/
theorem out_B (c : Dev nD) (i : grid0.Coords) (a1 : Memref sig .tc .vmem S1x512x256 .f32) (h1 : a1.IsWhole)
    (a2 : Memref sig .tc .vmem S8x256 .f32) (h2 : a2.IsWhole) (a3 : Memref sig .tc .vmem S8x256 .f32) (h3 : a3.IsWhole)
    (a4 : Memref sig .tc .vmem S8x1 .f32) (h4 : a4.IsWhole) (a5 : Memref sig .tc .vmem S8x256 .f32) (h5 : a5.IsWhole)
    (hc : ¬cond0_0 i) (x0 : Vec F S1x512x256 .f32) (x1 x2 : Vec F S8x256 .f32) (x3 : Vec F S8x1 .f32) (xo4 : Vec F S8x256 .f32) :
    out0_B_4 c i a1 h1 a2 h2 a3 h3 a4 h4 a5 h5 hc x0 x1 x2 x3 xo4 = k0_pay2 x0 x1 x2 x3 xo4 := by
  unfold out0_B_4
  rw [View.read_writes_eq_canon _ _ _ (cover0_B_4 c i a1 h1 a2 h2 a3 h3 a4 h4 a5 h5 hc x0 x1 x2 x3 xo4)]
  unfold kernelRun0_B
  dsimp only
  sl_unfold_words
  rw [View.canon_unit_zero hz2]
  simp only [View.readAt_eq_ld, h1.read_unread, h2.read_unread, h3.read_unread, h4.read_unread, h5.read_unread,
    View.ld_unit_zero (S := S1x512x256) hz3, View.ld_unit_zero (S := S8x256) hz2, View.ld_unit_zero (S := S8x1) hz2]

/-- At the first entry the body stores the zero block, reads it back, and leaves the same arithmetic of the loaded
    blocks and the zero block. -/
theorem out_A (c : Dev nD) (i : grid0.Coords) (a1 : Memref sig .tc .vmem S1x512x256 .f32) (h1 : a1.IsWhole)
    (a2 : Memref sig .tc .vmem S8x256 .f32) (h2 : a2.IsWhole) (a3 : Memref sig .tc .vmem S8x256 .f32) (h3 : a3.IsWhole)
    (a4 : Memref sig .tc .vmem S8x1 .f32) (h4 : a4.IsWhole) (a5 : Memref sig .tc .vmem S8x256 .f32) (h5 : a5.IsWhole)
    (hc : cond0_0 i) (x0 : Vec F S1x512x256 .f32) (x1 x2 : Vec F S8x256 .f32) (x3 : Vec F S8x1 .f32) :
    out0_A_4 c i a1 h1 a2 h2 a3 h3 a4 h4 a5 h5 hc x0 x1 x2 x3 = k0_pay2 x0 x1 x2 x3 (k0_pay1 (F := F)) := by
  unfold out0_A_4
  rw [View.read_writes_eq_canon _ _ _ (cover0_A_4 c i a1 h1 a2 h2 a3 h3 a4 h4 a5 h5 hc x0 x1 x2 x3)]
  unfold kernelRun0_A
  dsimp only
  sl_unfold_words
  rw [View.canon_cons_unit_zero (S := S8x256) hz2, View.readCov_unit_zero (S := S8x256) _ hz2]
  simp only [View.readAt_eq_ld, h1.read_unread, h2.read_unread, h3.read_unread, h4.read_unread,
    View.ld_unit_zero (S := S1x512x256) hz3, View.ld_unit_zero (S := S8x256) hz2, View.ld_unit_zero (S := S8x1) hz2]

end AnyFloat

section AtIdeal

variable (V : (c : Dev nD) → (b : Ref sig .tc) → Buf (Elt Ideal) ((c : Thread nD τ).loc b))

/-- The printed index maps over the grid: the samples' window sits at batch entry `t`, the tables' windows at their
    one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem lt16 (t : Fin cfg0.N) : t.val < 16 := lt_of_lt_of_eq t.isLt (show cfg0.N = 16 from N_0)

/-- The samples' block at entry `t` is batch entry `t` of the samples. -/
theorem blk0_apply (c : Dev nD) (t : Fin cfg0.N) (r : Fin 512) (q : Fin 256) :
    iblk0 V c 0 t (ix3 (0 : Fin 1) r q) = V c main_arg0 (ix3 (⟨t.val, lt16 t⟩ : Fin 16) r q) := by
  obtain ⟨e0, e1, e2, -⟩ := idx_facts t
  show V c main_arg0 (((cfg0.win 0).blk t).view.emb (ix3 (0 : Fin 1) r q)) = _
  refine congrArg (V c main_arg0) (funext fun a => Fin.ext ?_)
  match a with
  | ⟨0, _⟩ => show win0_0.index t (0 : Fin 3) * 1 + 1 * 0 = t.val; omega
  | ⟨1, _⟩ => show win0_0.index t (1 : Fin 3) * 512 + 1 * r.val = r.val; omega
  | ⟨2, _⟩ => show win0_0.index t (2 : Fin 3) * 256 + 1 * q.val = q.val; omega

/-- The centres' block is the centres' array. -/
theorem blk1_apply (c : Dev nD) (t : Fin cfg0.N) (k : Fin 8) (q : Fin 256) :
    iblk0 V c 1 t (ix2 k q) = V c main_arg1 (ix2 k q) := by
  obtain ⟨-, -, -, e0, e1, -⟩ := idx_facts t
  show V c main_arg1 (((cfg0.win 1).blk t).view.emb (ix2 k q)) = _
  refine congrArg (V c main_arg1) (funext fun a => Fin.ext ?_)
  match a with
  | ⟨0, _⟩ => show win0_1.index t (0 : Fin 2) * 8 + 1 * k.val = k.val; omega
  | ⟨1, _⟩ => show win0_1.index t (1 : Fin 2) * 256 + 1 * q.val = q.val; omega

/-- The spreads' block is the spreads' array. -/
theorem blk2_apply (c : Dev nD) (t : Fin cfg0.N) (k : Fin 8) (q : Fin 256) :
    iblk0 V c 2 t (ix2 k q) = V c main_v0 (ix2 k q) := by
  obtain ⟨-, -, -, -, -, e0, e1, -⟩ := idx_facts t
  show V c main_v0 (((cfg0.win 2).blk t).view.emb (ix2 k q)) = _
  refine congrArg (V c main_v0) (funext fun a => Fin.ext ?_)
  match a with
  | ⟨0, _⟩ => show win0_2.index t (0 : Fin 2) * 8 + 1 * k.val = k.val; omega
  | ⟨1, _⟩ => show win0_2.index t (1 : Fin 2) * 256 + 1 * q.val = q.val; omega

/-- The weights' block is the weights' array. -/
theorem blk3_apply (c : Dev nD) (t : Fin cfg0.N) (k : Fin 8) :
    iblk0 V c 3 t (ix2 k (0 : Fin 1)) = V c main_v9 (ix2 k (0 : Fin 1)) := by
  obtain ⟨-, -, -, -, -, -, -, e0, e1⟩ := idx_facts t
  show V c main_v9 (((cfg0.win 3).blk t).view.emb (ix2 k (0 : Fin 1))) = _
  refine congrArg (V c main_v9) (funext fun a => Fin.ext ?_)
  match a with
  | ⟨0, _⟩ => show win0_3.index t (0 : Fin 2) * 8 + 1 * k.val = k.val; omega
  | ⟨1, _⟩ => show win0_3.index t (1 : Fin 2) * 1 + 1 * 0 = 0; omega

theorem rows_blk0 (c : Dev nD) (t : Fin cfg0.N) :
    rows (iblk0 V c 0 t) = fun r q => V c main_arg0 (ix3 (⟨t.val, lt16 t⟩ : Fin 16) r q) :=
  funext fun r => funext fun q => blk0_apply V c t r q
theorem tab_blk1 (c : Dev nD) (t : Fin cfg0.N) : tab (iblk0 V c 1 t) = fun k q => V c main_arg1 (ix2 k q) :=
  funext fun k => funext fun q => blk1_apply V c t k q
theorem tab_blk2 (c : Dev nD) (t : Fin cfg0.N) : tab (iblk0 V c 2 t) = fun k q => V c main_v0 (ix2 k q) :=
  funext fun k => funext fun q => blk2_apply V c t k q
theorem col_blk3 (c : Dev nD) (t : Fin cfg0.N) : col (iblk0 V c 3 t) = fun k => V c main_v9 (ix2 k (0 : Fin 1)) :=
  funext fun k => blk3_apply V c t k

/-- Batch entry `n`'s row sums of the responsibilities (zero past the sixteenth entry). -/
def part (c : Dev nD) (n : ℕ) (k : Fin 8) (d : Fin 256) : EReal :=
  if h : n < 16 then
    Cert.Posterior.rowSum (fun r q => V c main_arg0 (ix3 (⟨n, h⟩ : Fin 16) r q)) (fun k q => V c main_arg1 (ix2 k q))
      (fun k q => V c main_v0 (ix2 k q)) (fun k => V c main_v9 (ix2 k (0 : Fin 1))) k d
  else 0

/-- The row sums the body forms from entry `t`'s loaded blocks are batch entry `t`'s. -/
theorem blk_rowSum (c : Dev nD) (t : Fin cfg0.N) (k : Fin 8) (d : Fin 256) :
    Cert.Posterior.rowSum (rows (iblk0 V c 0 t)) (tab (iblk0 V c 1 t)) (tab (iblk0 V c 2 t)) (col (iblk0 V c 3 t)) k d
      = part V c t.val k d := by
  rw [rows_blk0, tab_blk1, tab_blk2, col_blk3]
  unfold part
  rw [dif_pos (lt16 t)]

variable (hpay : ∀ (x0 : Vec Ideal S1x512x256 .f32) (x1 x2 : Vec Ideal S8x256 .f32) (x3 : Vec Ideal S8x1 .f32)
    (x4 : Vec Ideal S8x256 .f32) (k : Fin 8) (d : Fin 256),
      k0_pay2 (F := Ideal) x0 x1 x2 x3 x4 (ix2 k d)
        = x4 (ix2 k d) + Cert.Posterior.rowSum (rows x0) (tab x1) (tab x2) (col x3) k d)

include hpay in
/-- What the output's staging buffer holds after entry `n`: the row sums of entries `0 … n`, added up — by induction
    on the entry. -/
theorem outsAt_apply (c : Dev nD) : ∀ (n : ℕ) (h : n < cfg0.N) (k : Fin 8) (d : Fin 256),
    outsAt0 V c n h (ix2 k d) = ∑ b ∈ Finset.range (n + 1), part V c b k d
  | 0, h, k, d => by
    have e := (outsAt0_A V c ⟨0, h⟩ rfl).trans (out_A ..)
    rw [Finset.sum_range_one]
    refine (congrFun e (ix2 k d)).trans ?_
    rw [hpay, blk_rowSum V c ⟨0, h⟩ k d]
    show Ideal.ofBits .f32 0x00000000#32 + _ = _
    rw [Ideal.ofBits_zero_f32, zero_add]
  | n + 1, h, k, d => by
    have hN : cfg0.N = 16 := N_0
    have hB : ¬(⟨n + 1, h⟩ : Fin cfg0.N).val % 16 = 0 := by dsimp only; omega
    have e := (outsAt0_B V c ⟨n + 1, h⟩ hB).trans (out_B ..)
    refine (congrFun e (ix2 k d)).trans ?_
    rw [hpay, blk_rowSum V c ⟨n + 1, h⟩ k d, Finset.sum_range_succ]
    show outsAt0 V c n _ (ix2 k d) + _ = _
    rw [outsAt_apply c n]

/-- The staging buffer after the last entry, as contents of the column masses' array (its one block IS the array). -/
abbrev result (c : Dev nD) : Buf (Elt Ideal) ((c : Thread nD τ).loc main_v10) :=
  outsAt0 V c 15 (by rw [show cfg0.N = 16 from N_0]; decide)

/-- The one write-back, after the last entry, writes it: block (0, 0) of the [8, 256] array read through zero offsets
    is the array. -/
theorem flushed_eq (c : Dev nD) (t : Fin cfg0.N) (hf : (cfg0.win 4).flush t = true) :
    (dat0 V c).flushed 4 t = ((cfg0.win 4).blk t).view.read (Elt Ideal) (result V c) := by
  have hN : cfg0.N = 16 := N_0
  have h15 : t.val = 15 := by have := (flush0_4 t).mp hf; have := t.isLt; omega
  obtain rfl : t = t0_15 := Fin.ext h15
  show (cfg0.win 4).cut (grid0.coords t0_15) ((dat0 V c).after 4 t0_15) = _
  rw [after0_4]
  have hz' : (fun a => win0_4.index t0_15 a * main_v10.ty.shape.size a) = fun _ => 0 := funext fun a => by fin_cases a <;> decide
  exact (Memref.read_access_unit_zero (Elt Ideal) main_v10 hz' (fun a => by rw [congrFun hz' a]; simp) (result V c)).symm

/-- So the column masses' array ends holding the staging buffer's contents after the last entry. -/
theorem final (c : Dev nD) : (dat0 V c).arrAt 4 cfg0.N = result V c :=
  (dat0 V c).arrAt_eq_of_cover 4 (result V c) (flushed_eq V c) fun i =>
    ⟨t0_15, (flush0_4 t0_15).mpr rfl, by
      show i ∈ ((View.whole main_v10).slice (win0_4.rect t0_15)).set
      rw [View.set_slice_whole, Rect.mem_set_unit]
      intro a
      have h0 : (i 0 : Nat) < 8 := (i 0).isLt
      have h1 : (i 1 : Nat) < 256 := (i 1).isLt
      match a with
      | ⟨0, _⟩ => show win0_4.index t0_15 0 * win0_4.size 0 ≤ (i 0 : Nat) ∧ (i 0 : Nat) < win0_4.index t0_15 0 * win0_4.size 0 + win0_4.xsize (grid0.coords t0_15) 0
                  rw [show win0_4.index t0_15 0 * win0_4.size 0 = 0 from by decide +kernel, show win0_4.xsize (grid0.coords t0_15) 0 = 8 from by decide +kernel]; omega
      | ⟨1, _⟩ => show win0_4.index t0_15 1 * win0_4.size 1 ≤ (i 1 : Nat) ∧ (i 1 : Nat) < win0_4.index t0_15 1 * win0_4.size 1 + win0_4.xsize (grid0.coords t0_15) 1
                  rw [show win0_4.index t0_15 1 * win0_4.size 1 = 0 from by decide +kernel, show win0_4.xsize (grid0.coords t0_15) 1 = 256 from by decide +kernel]; omega⟩

include hpay in
/-- The column masses' array after the launch, at cluster `k` and column `d`: the sum over the sixteen batch entries of
    their row sums. -/
theorem final_apply (c : Dev nD) (k : Fin 8) (d : Fin 256) :
    (dat0 V c).arrAt 4 cfg0.N (ix2 k d)
      = Cert.Posterior.total (fun b r q => V c main_arg0 (ix3 b r q)) (fun k q => V c main_arg1 (ix2 k q))
          (fun k q => V c main_v0 (ix2 k q)) (fun k => V c main_v9 (ix2 k (0 : Fin 1))) k d := by
  rw [final V c]
  show outsAt0 V c 15 _ (ix2 k d) = _
  rw [outsAt_apply V hpay c 15 _ k d]
  unfold Cert.Posterior.total
  show ∑ b ∈ Finset.range 16, part V c b k d = _
  rw [← Fin.sum_univ_eq_sum_range (fun b => part V c b k d) 16]
  refine Finset.sum_congr rfl fun b _ => ?_
  unfold part
  rw [dif_pos b.isLt]

end AtIdeal

end Cert.KernelIdeal.Region0

end
-- ==== Proof.Region1Value.lean ====
/-
  The second launch: the result array after it.

  The launch walks the sixteen batch entries. At entry `t` the body reads the entry's [1, 512, 256] block of the
  samples and the whole cluster tables (centres, spreads, weights, column masses) and stores a [1, 512, 256] block:
  the standardised, weighted cluster sum of the entry's samples. The sixteen blocks tile the [16, 512, 256] result,
  so after the launch the result array is ONE function of the arrays the launch found: entry `(b, t, d)` is
  `outB` of batch entry `b`'s rows and the tables, at row `t` and column `d`.
-/
import proofs.«173853_j24558622998529_1_alg».proof.Proof.Gen.KernelIdeal.Frame
import proofs.«173853_j24558622998529_1_alg».proof.Proof.Spec
import proofs.«173853_j24558622998529_1_alg».proof.Proof.Blocks
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.BodyValue

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The result array as one function of the five arrays the launch reads: the samples, the centres, the spreads,
    the weights and the column masses. -/
def G (a0 : S16x512x256.Idx → EReal) (a1 a2 : S8x256.Idx → EReal) (a3 : S8x1.Idx → EReal) (a4 : S8x256.Idx → EReal) :
    S16x512x256.Idx → EReal := fun i =>
  Cert.Posterior.outB (fun t d => a0 (ix3 (i 0) t d)) (fun k d => a1 (ix2 k d)) (fun k d => a2 (ix2 k d))
    (fun k => a3 (ix2 k (0 : Fin 1))) (fun k d => a4 (ix2 k d)) (i 1) (i 2)

/-- The printed index maps over the grid: the samples' window and the result's window sit at batch entry `t`, the
    tables' windows at their one block. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val ∧ win1_5.index t (1 : Fin 3) = 0 ∧ win1_5.index t (2 : Fin 3) = 0 :=
  (by decide +kernel : ∀ t : Fin grid1.N, _)

theorem lt16 (t : Fin cfg1.N) : t.val < 16 := lt_of_lt_of_eq t.isLt (show cfg1.N = 16 from N_1)

/-- The samples' block at entry `t` is batch entry `t` of the samples. -/
theorem blk0_apply (c : Dev nD) (t : Fin cfg1.N) (r : Fin 512) (q : Fin 256) :
    iblk1 V c 0 t (ix3 (0 : Fin 1) r q) = V c main_arg0 (ix3 (⟨t.val, lt16 t⟩ : Fin 16) r q) := by
  obtain ⟨e0, e1, e2, -⟩ := idx_facts t
  show V c main_arg0 (((cfg1.win 0).blk t).view.emb (ix3 (0 : Fin 1) r q)) = _
  refine congrArg (V c main_arg0) (funext fun a => Fin.ext ?_)
  match a with
  | ⟨0, _⟩ => show win1_0.index t (0 : Fin 3) * 1 + 1 * 0 = t.val; omega
  | ⟨1, _⟩ => show win1_0.index t (1 : Fin 3) * 512 + 1 * r.val = r.val; omega
  | ⟨2, _⟩ => show win1_0.index t (2 : Fin 3) * 256 + 1 * q.val = q.val; omega

/-- The centres' block is the centres' array. -/
theorem blk1_apply (c : Dev nD) (t : Fin cfg1.N) (k : Fin 8) (q : Fin 256) :
    iblk1 V c 1 t (ix2 k q) = V c main_arg1 (ix2 k q) := by
  obtain ⟨-, -, -, e0, e1, -⟩ := idx_facts t
  show V c main_arg1 (((cfg1.win 1).blk t).view.emb (ix2 k q)) = _
  refine congrArg (V c main_arg1) (funext fun a => Fin.ext ?_)
  match a with
  | ⟨0, _⟩ => show win1_1.index t (0 : Fin 2) * 8 + 1 * k.val = k.val; omega
  | ⟨1, _⟩ => show win1_1.index t (1 : Fin 2) * 256 + 1 * q.val = q.val; omega

/-- The spreads' block is the spreads' array. -/
theorem blk2_apply (c : Dev nD) (t : Fin cfg1.N) (k : Fin 8) (q : Fin 256) :
    iblk1 V c 2 t (ix2 k q) = V c main_v0 (ix2 k q) := by
  obtain ⟨-, -, -, -, -, e0, e1, -⟩ := idx_facts t
  show V c main_v0 (((cfg1.win 2).blk t).view.emb (ix2 k q)) = _
  refine congrArg (V c main_v0) (funext fun a => Fin.ext ?_)
  match a with
  | ⟨0, _⟩ => show win1_2.index t (0 : Fin 2) * 8 + 1 * k.val = k.val; omega
  | ⟨1, _⟩ => show win1_2.index t (1 : Fin 2) * 256 + 1 * q.val = q.val; omega

/-- The weights' block is the weights' array. -/
theorem blk3_apply (c : Dev nD) (t : Fin cfg1.N) (k : Fin 8) :
    iblk1 V c 3 t (ix2 k (0 : Fin 1)) = V c main_v9 (ix2 k (0 : Fin 1)) := by
  obtain ⟨-, -, -, -, -, -, -, e0, e1, -⟩ := idx_facts t
  show V c main_v9 (((cfg1.win 3).blk t).view.emb (ix2 k (0 : Fin 1))) = _
  refine congrArg (V c main_v9) (funext fun a => Fin.ext ?_)
  match a with
  | ⟨0, _⟩ => show win1_3.index t (0 : Fin 2) * 8 + 1 * k.val = k.val; omega
  | ⟨1, _⟩ => show win1_3.index t (1 : Fin 2) * 1 + 1 * 0 = 0; omega

/-- The column masses' block is the column masses' array. -/
theorem blk4_apply (c : Dev nD) (t : Fin cfg1.N) (k : Fin 8) (q : Fin 256) :
    iblk1 V c 4 t (ix2 k q) = V c main_v10 (ix2 k q) := by
  obtain ⟨-, -, -, -, -, -, -, -, -, e0, e1, -⟩ := idx_facts t
  show V c main_v10 (((cfg1.win 4).blk t).view.emb (ix2 k q)) = _
  refine congrArg (V c main_v10) (funext fun a => Fin.ext ?_)
  match a with
  | ⟨0, _⟩ => show win1_4.index t (0 : Fin 2) * 8 + 1 * k.val = k.val; omega
  | ⟨1, _⟩ => show win1_4.index t (1 : Fin 2) * 256 + 1 * q.val = q.val; omega

/-- Where the result block's entry `(0, r, q)` sits in the result array: `(t, r, q)`. -/
theorem emb5 (t : Fin cfg1.N) (r : Fin 512) (q : Fin 256) :
    ((cfg1.win 5).blk t).view.emb (ix3 (0 : Fin 1) r q) = ix3 (⟨t.val, lt16 t⟩ : Fin 16) r q := by
  obtain ⟨-, -, -, -, -, -, -, -, -, -, -, e0, e1, e2⟩ := idx_facts t
  refine funext fun a => Fin.ext ?_
  match a with
  | ⟨0, _⟩ => show win1_5.index t (0 : Fin 3) * 1 + 1 * 0 = t.val; omega
  | ⟨1, _⟩ => show win1_5.index t (1 : Fin 3) * 512 + 1 * r.val = r.val; omega
  | ⟨2, _⟩ => show win1_5.index t (2 : Fin 3) * 256 + 1 * q.val = q.val; omega

/-- The block readers of the five loaded blocks, as readers of the arrays. -/
theorem rows_blk0 (c : Dev nD) (t : Fin cfg1.N) :
    rows (iblk1 V c 0 t) = fun r q => V c main_arg0 (ix3 (⟨t.val, lt16 t⟩ : Fin 16) r q) :=
  funext fun r => funext fun q => blk0_apply V c t r q
theorem tab_blk1 (c : Dev nD) (t : Fin cfg1.N) : tab (iblk1 V c 1 t) = fun k q => V c main_arg1 (ix2 k q) :=
  funext fun k => funext fun q => blk1_apply V c t k q
theorem tab_blk2 (c : Dev nD) (t : Fin cfg1.N) : tab (iblk1 V c 2 t) = fun k q => V c main_v0 (ix2 k q) :=
  funext fun k => funext fun q => blk2_apply V c t k q
theorem col_blk3 (c : Dev nD) (t : Fin cfg1.N) : col (iblk1 V c 3 t) = fun k => V c main_v9 (ix2 k (0 : Fin 1)) :=
  funext fun k => blk3_apply V c t k
theorem tab_blk4 (c : Dev nD) (t : Fin cfg1.N) : tab (iblk1 V c 4 t) = fun k q => V c main_v10 (ix2 k q) :=
  funext fun k => funext fun q => blk4_apply V c t k q

variable (hpay : ∀ (x0 : Vec Ideal S1x512x256 .f32) (x1 x2 : Vec Ideal S8x256 .f32) (x3 : Vec Ideal S8x1 .f32)
    (x4 : Vec Ideal S8x256 .f32) (t : Fin 512) (d : Fin 256),
      k1_pay1 (F := Ideal) (k1_pay2 x0) (k1_pay3 x3) (k1_pay4 x0 x1 x2 x3) (k1_pay5 x0 x1 x2 x3 x4) (k1_pay6 x0 x1 x2 x3 x4)
          (k1_pay7 x0 x1 x2 x3 x4) (ix3 (0 : Fin 1) t d)
        = Cert.Posterior.outB (rows x0) (tab x1) (tab x2) (col x3) (tab x4) t d)

include hpay in
/-- What entry `t` writes back is block `t` of `G` of the arrays as the launch finds them. -/
theorem flushed_eq (c : Dev nD) (t : Fin cfg1.N) :
    (dat1 V c).flushed 5 t
      = ((cfg1.win 5).blk t).view.read (Elt Ideal) (G (V c main_arg0) (V c main_arg1) (V c main_v0) (V c main_v9) (V c main_v10)) := by
  show (cfg1.win 5).cut (grid1.coords t) ((dat1 V c).after 5 t) = _
  rw [after1_5]
  unfold out1_5
  rw [View.canon_unit_zero hz3]
  simp only [View.ld_unit_zero (S := S1x512x256) hz3, View.ld_unit_zero (S := S8x256) hz2, View.ld_unit_zero (S := S8x1) hz2]
  funext (j : S1x512x256.Idx)
  obtain ⟨u, r, q, rfl⟩ : ∃ (u : Fin 1) (r : Fin 512) (q : Fin 256), j = ix3 u r q := ⟨j 0, j 1, j 2, eq_ix3 j⟩
  obtain rfl : u = 0 := Subsingleton.elim _ _
  rw [View.read_apply, emb5 t r q]
  refine (hpay (iblk1 V c 0 t) (iblk1 V c 1 t) (iblk1 V c 2 t) (iblk1 V c 3 t) (iblk1 V c 4 t) r q).trans ?_
  rw [rows_blk0, tab_blk1, tab_blk2, col_blk3, tab_blk4]
  rfl

/-- An index of the result array is in entry `t`'s block iff each coordinate is in the block's range on its axis. -/
theorem mem_blk (t : Fin cfg1.N) (i : S16x512x256.Idx) :
    i ∈ ((cfg1.win 5).blk t).view.set ↔ ∀ a : Fin 3, win1_5.index t a * S1x512x256.size a ≤ (i a).val
      ∧ (i a).val < win1_5.index t a * S1x512x256.size a + S1x512x256.size a := by
  show i ∈ ((View.whole main_v11).slice (win1_5.rect t)).set ↔ _
  rw [View.set_slice_whole, Rect.mem_set_unit]
  exact Iff.rfl

/-- Every index of the result array is in the block of the entry named by its batch coordinate. -/
theorem cover (i : S16x512x256.Idx) :
    ∃ t : Fin cfg1.N, (cfg1.win 5).flush t = true ∧ i ∈ ((cfg1.win 5).blk t).view.set := by
  have hi0 : (i 0).val < 16 := (i 0).isLt
  have hi1 : (i 1).val < 512 := (i 1).isLt
  have hi2 : (i 2).val < 256 := (i 2).isLt
  have hN : cfg1.N = 16 := N_1
  obtain ⟨t, ht⟩ : ∃ t : Fin cfg1.N, t.val = (i 0).val := ⟨⟨(i 0).val, by rw [hN]; exact hi0⟩, rfl⟩
  obtain ⟨-, -, -, -, -, -, -, -, -, -, -, e0, e1, e2⟩ := idx_facts t
  refine ⟨t, flush1_5 t, ?_⟩
  rw [mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 256 ≤ (i 2).val ∧ (i 2).val < win1_5.index t (2 : Fin 3) * 256 + 256; omega

include hpay in
/-- The result array after the launch: `G` of the arrays the launch found. -/
theorem final (c : Dev nD) :
    (dat1 V c).arrAt 5 cfg1.N = G (V c main_arg0) (V c main_arg1) (V c main_v0) (V c main_v9) (V c main_v10) :=
  (dat1 V c).arrAt_eq_of_cover 5 (G (V c main_arg0) (V c main_arg1) (V c main_v0) (V c main_v9) (V c main_v10))
    (fun t _ => flushed_eq V hpay c t) cover

end Cert.KernelIdeal.Region1

end
-- ==== Proof.HostValue.lean ====
/-
  What the two host stretches before the launches leave: the spreads' softplus and the weights' softmax, each the same
  chain of host operations the reference applies to the same argument (named here by the reference's own stages, and
  never opened); the samples and the centres are untouched.
-/
import proofs.«173853_j24558622998529_1_alg».proof.Proof.Gen.KernelIdeal.Frame
import proofs.«173853_j24558622998529_1_alg».proof.Proof.Gen.ReferenceIdeal.Read
import Idealize.ShloMosaic.Lib.StableHlo.Run

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The spreads the launches read: the softplus chain of the spread argument. -/
theorem spreads (c : Dev nD) :
    V2 m ρ c main_v0 = Cert.ReferenceIdeal.Read.val_main_v0 (F := F) (m ((c.tc : Thread nD τ).loc main_arg2)) := by
  show StableHlo.after hostOps0_1 (StableHlo.after hostOps0 (W0 m ρ c)) (Proc.devRef .tc main_v0) = _
  after_results
  simp only [TRef.ofBuf, TRef.toBuf, cast_cast, cast_eq]
  rfl

/-- The weights the launches read: the softmax chain of the weight argument. -/
theorem weights (c : Dev nD) :
    V2 m ρ c main_v9 = Cert.ReferenceIdeal.Read.val_main_v9 (F := F) (m ((c.tc : Thread nD τ).loc main_arg3)) := by
  show StableHlo.after hostOps0_1 (StableHlo.after hostOps0 (W0 m ρ c)) (Proc.devRef .tc main_v9) = _
  after_results
  rfl

/-- The samples are as launched. -/
theorem samples (c : Dev nD) : V2 m ρ c main_arg0 = m ((c.tc : Thread nD τ).loc main_arg0) := by
  show StableHlo.after hostOps0_1 (StableHlo.after hostOps0 (W0 m ρ c)) (Proc.devRef .tc main_arg0) = _
  after_results

/-- The centres are as launched. -/
theorem centres (c : Dev nD) : V2 m ρ c main_arg1 = m ((c.tc : Thread nD τ).loc main_arg1) := by
  show StableHlo.after hostOps0_1 (StableHlo.after hostOps0 (W0 m ρ c)) (Proc.devRef .tc main_arg1) = _
  after_results

end Cert.KernelIdeal.HostValue

end
-- ==== Proof.Whole.lean ====
/-
  The whole result as a function of the four arrays: the samples [16, 512, 256], the centres [8, 256], the spreads
  [8, 256] and the weights [8, 1] (the spreads and the weights as the launches read them), entry by entry.
-/
import proofs.«173853_j24558622998529_1_alg».proof.Proof.Spec
import Idealize.ShloMosaic.Lib.ValueIdx

noncomputable section

namespace Cert.Posterior

open Idealize.ShloMosaic Idealize.ShloMosaic.ValueIdx

/-- Entry `(b, t, d)` of the result: `out` of the arrays read by coordinates. -/
def whole (a0 : (⟨3, ![16, 512, 256]⟩ : Shape).Idx → EReal) (a1 a2 : (⟨2, ![8, 256]⟩ : Shape).Idx → EReal)
    (a3 : (⟨2, ![8, 1]⟩ : Shape).Idx → EReal) : (⟨3, ![16, 512, 256]⟩ : Shape).Idx → EReal := fun i =>
  out (fun b r q => a0 (ix3 b r q)) (fun k q => a1 (ix2 k q)) (fun k q => a2 (ix2 k q))
    (fun k => a3 (ix2 k (0 : Fin 1))) (i 0) (i 1) (i 2)

end Cert.Posterior

end
-- ==== Proof.KernelValue.lean ====
/-
  The idealized kernel's result array as one function of its four arguments.

  The second launch leaves the result at `outB` of the arrays it finds; of these the samples and the centres are the
  arguments, the spreads and the weights the host chains of theirs, and the column masses what the first launch left:
  the sum over the batch entries of the responsibilities' row sums. Put together the result is `whole` of the
  arguments.
-/
import proofs.«173853_j24558622998529_1_alg».proof.Proof.KernelRun
import proofs.«173853_j24558622998529_1_alg».proof.Proof.Region0Value
import proofs.«173853_j24558622998529_1_alg».proof.Proof.Region1Value
import proofs.«173853_j24558622998529_1_alg».proof.Proof.HostValue
import proofs.«173853_j24558622998529_1_alg».proof.Proof.Whole

set_option maxRecDepth 16384

noncomputable section

namespace Cert.KernelIdeal.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.BodyValue

variable (m : (ℓ : Loc nD τ sig) → Buf (Elt Ideal) ℓ) (ρ : Dev nD → PrngReg)

/-- The first launch leaves its input arrays as it found them. -/
theorem V3_samples (c : Dev nD) : V3 m ρ c main_arg0 = m ((c.tc : Thread nD τ).loc main_arg0) :=
  ((W3_arr m ρ c 0).trans (((dat0 (V2 m ρ) c).arrAt_in 0 rfl _).trans (A_eq0 (V2 m ρ) c 0))).trans
    (HostValue.samples m ρ c)
theorem V3_centres (c : Dev nD) : V3 m ρ c main_arg1 = m ((c.tc : Thread nD τ).loc main_arg1) :=
  ((W3_arr m ρ c 1).trans (((dat0 (V2 m ρ) c).arrAt_in 1 rfl _).trans (A_eq0 (V2 m ρ) c 1))).trans
    (HostValue.centres m ρ c)
theorem V3_spreads (c : Dev nD) :
    V3 m ρ c main_v0 = Cert.ReferenceIdeal.Read.val_main_v0 (F := Ideal) (m ((c.tc : Thread nD τ).loc main_arg2)) :=
  ((W3_arr m ρ c 2).trans (((dat0 (V2 m ρ) c).arrAt_in 2 rfl _).trans (A_eq0 (V2 m ρ) c 2))).trans
    (HostValue.spreads m ρ c)
theorem V3_weights (c : Dev nD) :
    V3 m ρ c main_v9 = Cert.ReferenceIdeal.Read.val_main_v9 (F := Ideal) (m ((c.tc : Thread nD τ).loc main_arg3)) :=
  ((W3_arr m ρ c 3).trans (((dat0 (V2 m ρ) c).arrAt_in 3 rfl _).trans (A_eq0 (V2 m ρ) c 3))).trans
    (HostValue.weights m ρ c)
/-- The column masses the second launch reads are what the first launch's write-back left. -/
theorem V3_masses (c : Dev nD) : V3 m ρ c main_v10 = (dat0 (V2 m ρ) c).arrAt 4 cfg0.N := W3_arr m ρ c 4

variable
  (hpay0 : ∀ (x0 : Vec Ideal S1x512x256 .f32) (x1 x2 : Vec Ideal S8x256 .f32) (x3 : Vec Ideal S8x1 .f32)
    (x4 : Vec Ideal S8x256 .f32) (k : Fin 8) (d : Fin 256),
      k0_pay2 (F := Ideal) x0 x1 x2 x3 x4 (ix2 k d)
        = x4 (ix2 k d) + Cert.Posterior.rowSum (rows x0) (tab x1) (tab x2) (col x3) k d)
  (hpay1 : ∀ (x0 : Vec Ideal S1x512x256 .f32) (x1 x2 : Vec Ideal S8x256 .f32) (x3 : Vec Ideal S8x1 .f32)
    (x4 : Vec Ideal S8x256 .f32) (t : Fin 512) (d : Fin 256),
      k1_pay1 (F := Ideal) (k1_pay2 x0) (k1_pay3 x3) (k1_pay4 x0 x1 x2 x3) (k1_pay5 x0 x1 x2 x3 x4) (k1_pay6 x0 x1 x2 x3 x4)
          (k1_pay7 x0 x1 x2 x3 x4) (ix3 (0 : Fin 1) t d)
        = Cert.Posterior.outB (rows x0) (tab x1) (tab x2) (col x3) (tab x4) t d)

include hpay0 in
/-- The column masses the second launch reads, by cluster and column: the sum over the batch entries of the row sums. -/
theorem masses_eq (c : Dev nD) :
    (fun k q => V3 m ρ c main_v10 (ix2 k q))
      = Cert.Posterior.total (fun b r q => m ((c.tc : Thread nD τ).loc main_arg0) (ix3 b r q))
          (fun k q => m ((c.tc : Thread nD τ).loc main_arg1) (ix2 k q))
          (fun k q => Cert.ReferenceIdeal.Read.val_main_v0 (F := Ideal) (m ((c.tc : Thread nD τ).loc main_arg2)) (ix2 k q))
          (fun k => Cert.ReferenceIdeal.Read.val_main_v9 (F := Ideal) (m ((c.tc : Thread nD τ).loc main_arg3)) (ix2 k (0 : Fin 1))) := by
  funext k q
  rw [V3_masses m ρ c, Region0.final_apply (V2 m ρ) hpay0 c k q, HostValue.samples m ρ c, HostValue.centres m ρ c,
    HostValue.spreads m ρ c, HostValue.weights m ρ c]

include hpay0 hpay1 in
/-- The result buffer's contents after the last segment. -/
theorem result_eq (c : Dev nD) :
    W4 m ρ c (Proc.devRef .tc main_v11)
      = Cert.Posterior.whole (m ((c.tc : Thread nD τ).loc main_arg0)) (m ((c.tc : Thread nD τ).loc main_arg1))
          (Cert.ReferenceIdeal.Read.val_main_v0 (F := Ideal) (m ((c.tc : Thread nD τ).loc main_arg2)))
          (Cert.ReferenceIdeal.Read.val_main_v9 (F := Ideal) (m ((c.tc : Thread nD τ).loc main_arg3))) := by
  refine (W4_arr m ρ c 5).trans ((Region1.final (V3 m ρ) hpay1 c).trans ?_)
  unfold Region1.G
  rw [masses_eq m ρ hpay0 c, V3_samples m ρ c, V3_centres m ρ c, V3_spreads m ρ c, V3_weights m ρ c]
  rfl

include hpay0 hpay1 in
/-- Every weakly fair execution of the idealized kernel ends with the result array at `whole` of the arguments and the
    arguments unchanged. -/
theorem run : θ_run defs (onTc (τ := τ) (main (F := Ideal))) ⟨m, fun _ => 0, ρ⟩ (fun r => ∀ c : Dev nD,
      r.2.mem ((c.tc : Thread nD τ).loc main_v11)
        = Cert.Posterior.whole (m ((c.tc : Thread nD τ).loc main_arg0)) (m ((c.tc : Thread nD τ).loc main_arg1))
            (Cert.ReferenceIdeal.Read.val_main_v0 (F := Ideal) (m ((c.tc : Thread nD τ).loc main_arg2)))
            (Cert.ReferenceIdeal.Read.val_main_v9 (F := Ideal) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ hpay0 hpay1 c), (h c).2⟩)
    (RunValue.run_named m ρ)

end Cert.KernelIdeal.KernelValue

end
-- ==== Proof.LibAxisLayout.lean ====
/-
  Three-axis layout operations and single-axis reductions read at an index given by coordinates.

  A reduction of an [a, b, c] array along its middle or last axis leaves an [a, c] or [a, b] array; kept as a
  unit axis it is re-laid as [a, 1, c] or [a, b, 1] and broadcast back to [a, b, c]. Read at (i, j, k) each cast
  returns the operand's entry at the coordinates that remain — a unit coordinate is zero, so the row-major
  position is unchanged — and each broadcast reads the unit axis at 0 and the other axes at the result's own
  coordinates. A reduction over one axis, read at the kept coordinates, ranges over the dropped coordinate put
  back in its place.
-/
import Idealize.ShloMosaic.Lib.Pipeline.Value
import Idealize.ShloMosaic.Lib.ValueIdx
import Idealize.ShloMosaic.PureOps.Ideal.Laws

namespace Cert.Lib.AxisLayout

open Idealize.ShloMosaic Idealize.ShloMosaic.ValueIdx

variable {α : Type}

/-- Two indices of a one-axis shape with the same coordinate are equal. -/
theorem ext1 {n0 : ℕ} {f g : (⟨1, ![n0]⟩ : Shape).Idx} (h0 : (f 0).val = (g 0).val) : f = g :=
  funext fun a => Fin.ext (by match a with | ⟨0, _⟩ => exact h0)

/-- Two indices of a two-axis shape with the same coordinates are equal. -/
theorem ext2 {n0 n1 : ℕ} {f g : (⟨2, ![n0, n1]⟩ : Shape).Idx} (h0 : (f 0).val = (g 0).val) (h1 : (f 1).val = (g 1).val) : f = g :=
  funext fun a => Fin.ext (by match a with | ⟨0, _⟩ => exact h0 | ⟨1, _⟩ => exact h1)

/-- Two indices of a three-axis shape with the same coordinates are equal. -/
theorem ext3 {n0 n1 n2 : ℕ} {f g : (⟨3, ![n0, n1, n2]⟩ : Shape).Idx} (h0 : (f 0).val = (g 0).val) (h1 : (f 1).val = (g 1).val)
    (h2 : (f 2).val = (g 2).val) : f = g :=
  funext fun a => Fin.ext (by match a with | ⟨0, _⟩ => exact h0 | ⟨1, _⟩ => exact h1 | ⟨2, _⟩ => exact h2)

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, 1, c] array cast to [a, c] reads, at (i, k), the operand at (i, 0, k). -/
theorem shapeCast_a1c_ac_apply {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An [a, 1, c] array broadcast to [a, b, c] reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- Dropping the middle axis of [a, b, c]: the kept index (i, k) with coordinate j put back is (i, j, k). -/
theorem lift_abc_mid {a b c : ℕ} (h : (⟨3, ![a, b, c]⟩ : Shape).Reduces [1] (⟨2, ![a, c]⟩ : Shape)) (i : Fin a) (k : Fin c)
    (j : Fin ((⟨3, ![a, b, c]⟩ : Shape).size 1)) : h.lift (ix2 i k) j = ix3 i (⟨j.val, j.isLt⟩ : Fin b) k := by
  funext d; apply Fin.ext
  fin_cases d <;> rfl

/-- Dropping the last axis of [a, b, c]: the kept index (i, j) with coordinate k put back is (i, j, k). -/
theorem lift_abc_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- Dropping the last axis of [a, b]: the kept index i with coordinate k put back is (i, k). -/
theorem lift_ab_last {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext d; apply Fin.ext
  fin_cases d <;> rfl

variable {φ : FTy}

/-- A sum along the middle axis of [a, b, c], at (i, k), is the sum over j of the entries (i, j, k). -/
theorem sum_mid_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_abc_mid h i k j))

/-- A sum along the last axis of [a, b, c], at (i, j), is the sum over k of the entries (i, j, k). -/
theorem sum_last_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_abc_last h i j k))

/-- A sum along the last axis of [a, b], at i, is the sum over k of the entries (i, k). -/
theorem sum_row_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_ab_last h i k))

/-- A maximum along the middle axis of [a, b, c], at (i, k): the fold of max from the start value over the entries (i, j, k). -/
theorem max_mid_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (i : Fin a) (k : Fin c) :
    multiReduction .maximumf [1] ⟨2, ![a, c]⟩ src acc h hφ hacc (ix2 i k)
      = (Finset.univ : Finset (Fin b)).fold max (Ideal.ofBits φ acc) (fun j => src (ix3 i j k)) :=
  (Ideal.multiReduction_maximumf_single src acc h hφ hacc (ix2 i k)).trans
    (congrArg (fun f => (Finset.univ : Finset (Fin b)).fold max (Ideal.ofBits φ acc) f)
      (funext fun j => congrArg src (lift_abc_mid h i k j)))

/-- A maximum along the last axis of [a, b, c], at (i, j): the fold of max from the start value over the entries (i, j, k). -/
theorem max_last_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (lift_abc_last h i j k)))

end Cert.Lib.AxisLayout
-- ==== Proof.LibMiddleUnitAxis.lean ====
/-
  A unit axis inserted between two axes by a shape cast, read at an index.

  An `[a, b]` array cast to `[a, 1, b]` reads, at `(i, u, j)`, the operand at `(i, j)`: both indices have the
  same row-major position, `i · b + j`, since the middle coordinate of a unit axis is zero.
-/
import Idealize.ShloMosaic.Lib.ValueIdx
import Idealize.ShloMosaic.Lib.Pipeline.Value

noncomputable section

namespace Idealize.ShloMosaic.MiddleUnitAxis

open Idealize.ShloMosaic Idealize.ShloMosaic.ValueIdx

/-- An `[a, b]` array cast to `[a, 1, b]` reads, at `(i, u, j)`, the operand at `(i, j)`. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.MiddleUnitAxis

end
-- ==== Proof.LibLeadingAxis.lean ====
/-
  Layout operations and a reduction that involve the LEADING axis of a three-axis array, read at an index given
  by coordinates.

  A [1, b, c] array broadcast to [a, b, c] reads, at (i, j, k), the operand at (0, j, k): the leading axis of the
  operand is a unit axis, so every leading coordinate of the result reads its one slice. An [a, 1, 1] array
  broadcast to [a, b, c] reads, at (i, j, k), the operand at (i, 0, 0): both trailing axes of the operand are unit
  axes. A sum along the leading axis of [a, b, c], read at the kept coordinates (j, k), ranges over the dropped
  coordinate i put back in front: it is the sum over i of the entries (i, j, k).
-/
import Idealize.ShloMosaic.Lib.Pipeline.Value
import Idealize.ShloMosaic.Lib.ValueIdx
import Idealize.ShloMosaic.PureOps.Ideal.Laws

namespace Cert.Lib.LeadingAxis

open Idealize.ShloMosaic Idealize.ShloMosaic.ValueIdx

variable {α : Type}

/-- A [1, b, c] array broadcast to [a, b, c] reads, at (i, j, k), the operand at (0, j, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An [a, 1, 1] array broadcast to [a, b, c] reads, at (i, j, k), the operand at (i, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ v h (ix3 i j k) = v (ix3 i (0 : Fin 1) (0 : Fin 1)) := by
  refine broadcastTo_apply v h (ix3 i j k) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- Dropping the leading axis of [a, b, c]: the kept index (j, k) with coordinate i put back is (i, j, k). -/
theorem lift_abc_first {a b c : ℕ} (h : (⟨3, ![a, b, c]⟩ : Shape).Reduces [0] (⟨2, ![b, c]⟩ : Shape)) (j : Fin b) (k : Fin c)
    (i : Fin ((⟨3, ![a, b, c]⟩ : Shape).size 0)) : h.lift (ix2 j k) i = ix3 (⟨i.val, i.isLt⟩ : Fin a) j k := by
  funext d; apply Fin.ext
  fin_cases d <;> rfl

variable {φ : FTy}

/-- A sum along the leading axis of [a, b, c], at (j, k), is the sum over i of the entries (i, j, k). -/
theorem sum_first_apply {a b c : ℕ} (src : FVec Ideal ⟨3, ![a, b, c]⟩ φ) (acc : BitVec φ.bits)
    (h : (⟨3, ![a, b, c]⟩ : Shape).Reduces [0] (⟨2, ![b, c]⟩ : Shape)) (hφ : FKind.Formats φ) (hacc : acc = FKind.add.neutral φ hφ)
    (j : Fin b) (k : Fin c) :
    multiReduction .add [0] ⟨2, ![b, c]⟩ src acc h hφ hacc (ix2 j k) = ∑ i : Fin a, src (ix3 i j k) :=
  (Ideal.multiReduction_add_single src acc h hφ hacc (ix2 j k)).trans
    (Finset.sum_congr rfl fun i _ => congrArg src (lift_abc_first h j k i))

end Cert.Lib.LeadingAxis
-- ==== Proof.BodyValue.lean ====
/-
  The two kernel bodies' arithmetic, read one entry at a time.

  Both bodies start from the same [8, 512, 256] array of weighted likelihoods (cluster × row × column): the batch
  entry's block, the centres, the spreads and the weights are each re-laid with unit axes and spread over the axes
  they do not have, so that at (k, t, d) the array holds  p k · exp ((−½ · (x t d − m k d)) · (x t d − m k d) / (v k d + ε)).
  Dividing by the cluster sum plus ε gives the responsibilities. The first body adds their row sums to the
  accumulator; the second divides them by the column masses plus ε, forms the two row averages, and stores the
  cluster sum of the standardised samples. Each layout operation read at an index returns the operand's entry at
  the coordinates that remain, each sum along one axis ranges over the dropped coordinate, and the pointwise
  operations act entry by entry, so each body read at an index is the corresponding plain function of the
  blocks' entries, operation for operation.
-/
import proofs.«173853_j24558622998529_1_alg».proof.Proof.Gen.KernelIdeal.Skeleton
import proofs.«173853_j24558622998529_1_alg».proof.Proof.Spec
import proofs.«173853_j24558622998529_1_alg».proof.Proof.Blocks
import proofs.«173853_j24558622998529_1_alg».proof.Proof.LibAxisLayout
import proofs.«173853_j24558622998529_1_alg».proof.Proof.LibMiddleUnitAxis
import proofs.«173853_j24558622998529_1_alg».proof.Proof.LibLeadingAxis
import Idealize.ShloMosaic.Lib.ValueLayout

noncomputable section

namespace Cert.KernelIdeal.BodyValue

open Idealize.ShloMosaic Idealize.ShloMosaic.ValueIdx Cert.KernelIdeal Cert.KernelIdeal.Gen

/-! ## Pointwise operations at an index -/

/-- An exponential at an index is the exponential of the element. -/
theorem exp_apply {s : Shape} {φ : FTy} (a : FVec Ideal s φ) (i : s.Idx) : exp a i = Ideal.exp (a i) := rfl
/-- A square root at an index is the square root of the element. -/
theorem sqrt_apply {s : Shape} {φ : FTy} (a : FVec Ideal s φ) (i : s.Idx) : sqrt a i = Ideal.sqrt (a i) := rfl

/-! ## The layout operations of the two bodies, read at an index -/

section Layout
variable (k : Fin 8) (t : Fin 512) (d : Fin 256)

/-- A [1, 512, 256] block spread over the clusters reads its one slice. -/
theorem over1_apply (g : FVec Ideal S1x512x256 .f32) :
    broadcastTo S8x512x256 g broadcasts_S1x512x256_S8x512x256 (ix3 k t d) = g (ix3 (0 : Fin 1) t d) :=
  Cert.Lib.LeadingAxis.broadcastTo_1bc_abc_apply g _ k t d

/-- An [8, 1, 256] table spread over the rows reads its one row. -/
theorem overT_apply (g : FVec Ideal S8x1x256 .f32) :
    broadcastTo S8x512x256 g broadcasts_S8x1x256_S8x512x256 (ix3 k t d) = g (ix3 k (0 : Fin 1) d) :=
  Cert.Lib.AxisLayout.broadcastTo_a1c_abc_apply g _ k t d

/-- An [8, 1, 1] column spread over rows and columns reads its one entry per cluster. -/
theorem overTD_apply (g : FVec Ideal S8x1x1 .f32) :
    broadcastTo S8x512x256 g broadcasts_S8x1x1_S8x512x256 (ix3 k t d) = g (ix3 k (0 : Fin 1) (0 : Fin 1)) :=
  Cert.Lib.LeadingAxis.broadcastTo_a11_abc_apply g _ k t d

/-- A [512, 256] array re-laid with a leading unit axis. -/
theorem lead_apply (y : FVec Ideal S512x256 .f32) (u : Fin 1) :
    shapeCast S1x512x256 y shapeCasts_S512x256_S1x512x256 (ix3 u t d) = y (ix2 t d) :=
  shapeCast_ab_1ab_apply y _ u t d

/-- A [1, 512, 256] block with its leading unit axis dropped. -/
theorem unlead_apply (x0 : FVec Ideal S1x512x256 .f32) :
    shapeCast S512x256 x0 shapeCasts_S1x512x256_S512x256 (ix2 t d) = x0 (ix3 (0 : Fin 1) t d) :=
  shapeCast_1ab_ab_apply x0 _ t d

/-- An [8, 256] table re-laid with a middle unit axis. -/
theorem mid_apply (y : FVec Ideal S8x256 .f32) (u : Fin 1) :
    shapeCast S8x1x256 y shapeCasts_S8x256_S8x1x256 (ix3 k u d) = y (ix2 k d) :=
  Idealize.ShloMosaic.MiddleUnitAxis.shapeCast_ab_a1b_apply y _ k u d

/-- An [8, 1] column re-laid with a further trailing unit axis. -/
theorem last_apply (y : FVec Ideal S8x1 .f32) (u w : Fin 1) :
    shapeCast S8x1x1 y shapeCasts_S8x1_S8x1x1 (ix3 k u w) = y (ix2 k u) :=
  Cert.Lib.AxisLayout.shapeCast_ab_ab1_apply y _ k u w

/-- The sum over the clusters of an [8, 512, 256] array, at (t, d). -/
theorem sumK_apply (src : FVec Ideal S8x512x256 .f32) (hφ : FKind.Formats .f32)
    (hacc : (0x00000000#32 : BitVec 32) = 0x00000000#32) :
    multiReduction .add [0] S512x256 src 0x00000000#32 reduces_S8x512x256_S512x256 hφ hacc (ix2 t d)
      = ∑ k' : Fin 8, src (ix3 k' t d) :=
  Cert.Lib.LeadingAxis.sum_first_apply src _ _ hφ hacc t d

/-- The sum over the rows of an [8, 512, 256] array, at (k, d). -/
theorem sumT_apply (src : FVec Ideal S8x512x256 .f32) (hφ : FKind.Formats .f32)
    (hacc : (0x00000000#32 : BitVec 32) = 0x00000000#32) :
    multiReduction .add [1] S8x256 src 0x00000000#32 reduces_S8x512x256_S8x256 hφ hacc (ix2 k d)
      = ∑ t' : Fin 512, src (ix3 k t' d) :=
  Cert.Lib.AxisLayout.sum_mid_apply src _ _ hφ hacc k d

end Layout

/-! ## The responsibilities -/

section Stages
variable (x0 : Vec Ideal S1x512x256 .f32) (x1 x2 : Vec Ideal S8x256 .f32) (x3 : Vec Ideal S8x1 .f32) (x4 : Vec Ideal S8x256 .f32)

/-- The weighted likelihoods as an [8, 512, 256] array, in the bodies' operation order. -/
def likV : FVec Ideal S8x512x256 .f32 :=
  have v4 : FVec Ideal S8x256 .f32 := shapeCast S8x256 x2 shapeCasts_S8x256_S8x256
  have v9 : FVec Ideal S1x512x256 .f32 := shapeCast S1x512x256 (k1_pay2 x0) shapeCasts_S512x256_S1x512x256
  have v10 : FVec Ideal S8x1x256 .f32 := shapeCast S8x1x256 x1 shapeCasts_S8x256_S8x1x256
  have v11 : FVec Ideal S8x512x256 .f32 := broadcastTo S8x512x256 v9 broadcasts_S1x512x256_S8x512x256
  have v12 : FVec Ideal S8x512x256 .f32 := broadcastTo S8x512x256 v10 broadcasts_S8x1x256_S8x512x256
  have v13 : FVec Ideal S8x512x256 .f32 := subf v11 v12
  have v14 : FVec Ideal S8x1x1 .f32 := shapeCast S8x1x1 (k1_pay3 x3) shapeCasts_S8x1_S8x1x1
  have cst : Ideal .f32 := Scalar.ofBits .f32 0xBF000000#32
  have v15 : FVec Ideal S8x512x256 .f32 := broadcast S8x512x256 cst
  have v16 : FVec Ideal S8x512x256 .f32 := mulf v15 v13
  have v17 : FVec Ideal S8x512x256 .f32 := mulf v16 v13
  have v18 : FVec Ideal S8x1x256 .f32 := shapeCast S8x1x256 v4 shapeCasts_S8x256_S8x1x256
  have cst_10 : Ideal .f32 := Scalar.ofBits .f32 0x3A83126F#32
  have v19 : FVec Ideal S8x1x256 .f32 := broadcast S8x1x256 cst_10
  have v20 : FVec Ideal S8x1x256 .f32 := addf v18 v19
  have v21 : FVec Ideal S8x512x256 .f32 := broadcastTo S8x512x256 v20 broadcasts_S8x1x256_S8x512x256
  have v22 : FVec Ideal S8x512x256 .f32 := divf v17 v21
  have v23 : FVec Ideal S8x512x256 .f32 := exp v22
  have v24 : FVec Ideal S8x512x256 .f32 := broadcastTo S8x512x256 v14 broadcasts_S8x1x1_S8x512x256
  mulf v24 v23

/-- An [8, 512, 256] array divided by its cluster sum plus ε, in the bodies' operation order. -/
def normalise (p : FVec Ideal S8x512x256 .f32) : FVec Ideal S8x512x256 .f32 :=
  divf p (broadcastTo S8x512x256
    (addf (shapeCast S1x512x256
        (multiReduction .add [0] S512x256 p 0x00000000#32 reduces_S8x512x256_S512x256 (.inl rfl) rfl)
        shapeCasts_S512x256_S1x512x256)
      (broadcast S1x512x256 (Scalar.ofBits .f32 0x3A83126F#32)))
    broadcasts_S1x512x256_S8x512x256)

/-- The responsibilities are the weighted likelihoods divided by their cluster sum plus ε. -/
theorem pay4_eq : k1_pay4 (F := Ideal) x0 x1 x2 x3 = normalise (likV x0 x1 x2 x3) := rfl

variable (k : Fin 8) (t : Fin 512) (d : Fin 256)

/-- The weighted likelihood array at (k, t, d). -/
theorem likV_apply :
    likV x0 x1 x2 x3 (ix3 k t d) = Cert.Posterior.lik (rows x0) (tab x1) (tab x2) (col x3) k t d := by
  simp only [likV, k1_pay2, k1_pay3, mulf_apply, exp_apply, divf_apply, subf_apply, addf_apply, broadcast_apply,
    over1_apply, overT_apply, overTD_apply, lead_apply, unlead_apply, mid_apply, last_apply, shapeCast_self]
  rfl

/-- An array divided by its cluster sum plus ε, at (k, t, d). -/
theorem normalise_apply (p : FVec Ideal S8x512x256 .f32) :
    normalise p (ix3 k t d) = Ideal.div (p (ix3 k t d)) ((∑ k' : Fin 8, p (ix3 k' t d)) + Cert.Posterior.eps) := by
  simp only [normalise, divf_apply, addf_apply, broadcast_apply, over1_apply, lead_apply]
  rw [sumK_apply]
  rfl

/-- The responsibility array at (k, t, d). -/
theorem pay4_apply :
    k1_pay4 (F := Ideal) x0 x1 x2 x3 (ix3 k t d) = Cert.Posterior.tau (rows x0) (tab x1) (tab x2) (col x3) k t d := by
  rw [pay4_eq, normalise_apply]
  simp only [likV_apply]
  rfl

end Stages

section Stages2
variable (x0 : Vec Ideal S1x512x256 .f32) (x1 x2 : Vec Ideal S8x256 .f32) (x3 : Vec Ideal S8x1 .f32) (x4 : Vec Ideal S8x256 .f32)
variable (k : Fin 8) (t : Fin 512) (d : Fin 256)

/-- The responsibilities divided by the column masses plus ε. -/
theorem pay5_apply :
    k1_pay5 (F := Ideal) x0 x1 x2 x3 x4 (ix3 k t d)
      = Cert.Posterior.hat (rows x0) (tab x1) (tab x2) (col x3) (tab x4) k t d := by
  simp only [k1_pay5, divf_apply, addf_apply, broadcast_apply, overT_apply, mid_apply, shapeCast_self, pay4_apply]
  rfl

/-- The normalised responsibilities times the samples. -/
theorem pay6_apply :
    k1_pay6 (F := Ideal) x0 x1 x2 x3 x4 (ix3 k t d)
      = Cert.Posterior.wx (rows x0) (tab x1) (tab x2) (col x3) (tab x4) k t d := by
  simp only [k1_pay6, k1_pay2, mulf_apply, over1_apply, lead_apply, unlead_apply, pay5_apply]
  rfl

/-- Their row sums, kept as an [8, 1, 256] array. -/
theorem pay7_apply (u : Fin 1) :
    k1_pay7 (F := Ideal) x0 x1 x2 x3 x4 (ix3 k u d)
      = ∑ t' : Fin 512, Cert.Posterior.wx (rows x0) (tab x1) (tab x2) (col x3) (tab x4) k t' d := by
  simp only [k1_pay7, mid_apply]
  rw [sumT_apply]
  exact Finset.sum_congr rfl fun t' _ => pay6_apply x0 x1 x2 x3 x4 k t' d

/-- The second body's stored block over ANY six operands, read at (0, t, d). -/
theorem pay1_gen (v1 : FVec Ideal S512x256 .f32) (v6 : FVec Ideal S8x1 .f32) (v31 v36 v39 : FVec Ideal S8x512x256 .f32)
    (v41 : FVec Ideal S8x1x256 .f32) (u : Fin 1) :
    k1_pay1 (F := Ideal) v1 v6 v31 v36 v39 v41 (ix3 u t d)
      = ∑ k' : Fin 8, Ideal.div (v31 (ix3 k' t d)) (Ideal.sqrt (v6 (ix2 k' (0 : Fin 1)) + Cert.Posterior.eps))
          * Ideal.div (v1 (ix2 t d) - Ideal.div (v41 (ix3 k' (0 : Fin 1) d)) Cert.Posterior.nRows)
              (Ideal.sqrt (Ideal.div (∑ t' : Fin 512, (v36 (ix3 k' t' d) * v39 (ix3 k' t' d)) * v39 (ix3 k' t' d))
                  Cert.Posterior.nRows + Cert.Posterior.eps)) := by
  simp only [k1_pay1, lead_apply]
  rw [sumK_apply]
  refine Finset.sum_congr rfl fun k' _ => ?_
  simp only [mulf_apply, divf_apply, subf_apply, addf_apply, sqrt_apply, broadcast_apply,
    over1_apply, overT_apply, overTD_apply, lead_apply, mid_apply, last_apply]
  rw [sumT_apply]
  rfl

/-- THE SECOND BODY: the stored block at (0, t, d) is the normalised output of this batch entry. -/
theorem pay1_apply (x0 : Vec Ideal S1x512x256 .f32) (x1 x2 : Vec Ideal S8x256 .f32) (x3 : Vec Ideal S8x1 .f32)
    (x4 : Vec Ideal S8x256 .f32) (t : Fin 512) (d : Fin 256) :
    k1_pay1 (F := Ideal) (k1_pay2 x0) (k1_pay3 x3) (k1_pay4 x0 x1 x2 x3) (k1_pay5 x0 x1 x2 x3 x4) (k1_pay6 x0 x1 x2 x3 x4)
        (k1_pay7 x0 x1 x2 x3 x4) (ix3 (0 : Fin 1) t d)
      = Cert.Posterior.outB (rows x0) (tab x1) (tab x2) (col x3) (tab x4) t d := by
  rw [pay1_gen]
  simp only [pay4_apply, pay5_apply, pay6_apply, pay7_apply, k1_pay2, k1_pay3, unlead_apply, shapeCast_self]
  rfl

/-- The first body adds, to the accumulator, the row sums of the responsibilities. -/
theorem pay0_eq : k0_pay2 (F := Ideal) x0 x1 x2 x3 x4
    = addf (shapeCast S8x256 x4 shapeCasts_S8x256_S8x256)
        (multiReduction .add [1] S8x256 (k1_pay4 (F := Ideal) x0 x1 x2 x3) 0x00000000#32 reduces_S8x512x256_S8x256 (.inl rfl) rfl) := rfl

/-- THE FIRST BODY: the accumulator's new value at (k, d) is its old value plus this batch entry's row sum of responsibilities. -/
theorem pay0_apply (x0 : Vec Ideal S1x512x256 .f32) (x1 x2 : Vec Ideal S8x256 .f32) (x3 : Vec Ideal S8x1 .f32)
    (x4 : Vec Ideal S8x256 .f32) (k : Fin 8) (d : Fin 256) :
    k0_pay2 (F := Ideal) x0 x1 x2 x3 x4 (ix2 k d)
      = x4 (ix2 k d) + Cert.Posterior.rowSum (rows x0) (tab x1) (tab x2) (col x3) k d := by
  rw [pay0_eq]
  simp only [addf_apply, shapeCast_self]
  rw [sumT_apply]
  simp only [pay4_apply]
  rfl

end Stages2

end Cert.KernelIdeal.BodyValue

end
-- ==== Proof.LibMidAxesSum.lean ====
/-
  A host sum over the two middle axes of a four-axis array, read at an index.

  A sum of an [a, b, c, d] array over its axes 1 and 2 keeps the coordinates (k, q) of axes 0 and 3; the entries that
  keep (k, q) are exactly the entries (k, p, r, q), one for each pair (p, r) of middle coordinates. So on the
  extended reals the sum read at (k, q) is the start value plus the double sum over p and r of the entries (k, p, r, q).
-/
import Idealize.ShloMosaic.Lib.ValueIdx
import Idealize.ShloMosaic.PureOps.Ideal.Laws

noncomputable section

namespace Cert.Lib.MidAxesSum

open Idealize.ShloMosaic Idealize.ShloMosaic.ValueIdx

/-- A host sum of an [a, b, c, d] array over its two middle axes, read at (k, q): the start value plus the sum over the
    two middle coordinates (p, r) of the entries (k, p, r, q) — exactly the entries that keep (k, q). -/
theorem hostReduceAdd_mid2_apply {a b c d : ℕ} (x : (⟨4, ![a, b, c, d]⟩ : Shape).Idx → EReal)
    (h : (⟨4, ![a, b, c, d]⟩ : Shape).ReducesTo [1, 2] ⟨2, ![a, d]⟩) (init : EReal) (k : Fin a) (q : Fin d) :
    Ideal.hostReduceAdd h x init (ix2 k q) = init + ∑ p : Fin b, ∑ r : Fin c, x (ix4 k p r q) := by
  unfold Ideal.hostReduceAdd
  refine congrArg (fun z => init + z) ?_
  have hdrop0 : ∀ i : (⟨4, ![a, b, c, d]⟩ : Shape).Idx, (h.drop i 0).val = (i 0).val := fun i => rfl
  have hdrop1 : ∀ i : (⟨4, ![a, b, c, d]⟩ : Shape).Idx, (h.drop i 1).val = (i 3).val := fun i => rfl
  rw [← Fintype.sum_prod_type' (fun p r => x (ix4 k p r q))]
  refine Finset.sum_nbij' (fun i => ((i 1 : Fin b), (i 2 : Fin c))) (fun p => ix4 k p.1 p.2 q) ?_ ?_ ?_ ?_ ?_
  · intro i _; exact Finset.mem_univ _
  · intro p _
    refine Finset.mem_filter.mpr ⟨Finset.mem_univ _, ?_⟩
    funext e
    apply Fin.ext
    match e with
    | ⟨0, _⟩ => exact hdrop0 _
    | ⟨1, _⟩ => exact hdrop1 _
  · intro i hi
    have hi2 := (Finset.mem_filter.mp hi).2
    funext e
    apply Fin.ext
    match e with
    | ⟨0, _⟩ => show k.val = (i 0).val; rw [← hdrop0 i, hi2]; rfl
    | ⟨1, _⟩ => rfl
    | ⟨2, _⟩ => rfl
    | ⟨3, _⟩ => show q.val = (i 3).val; rw [← hdrop1 i, hi2]; rfl
  · intro p _; rfl
  · intro i hi
    have hi2 := (Finset.mem_filter.mp hi).2
    refine congrArg x ?_
    funext e
    apply Fin.ext
    match e with
    | ⟨0, _⟩ => show (i 0).val = k.val; rw [← hdrop0 i, hi2]; rfl
    | ⟨1, _⟩ => rfl
    | ⟨2, _⟩ => rfl
    | ⟨3, _⟩ => show (i 3).val = q.val; rw [← hdrop1 i, hi2]; rfl

end Cert.Lib.MidAxesSum

end
-- ==== Proof.RefValue.lean ====
/-
  The reference's result, entry by entry.

  The reference forms, on whole [8, 16, 512, 256] arrays (cluster × batch entry × row × column), the weighted
  likelihoods, their cluster sum, the responsibilities, the column masses (ONE sum over the batch-entry and row axes),
  the normalised responsibilities, the two row averages and the cluster sum of the standardised samples. Each
  broadcast read at (k, b, t, d) returns its operand at the coordinates the operand has; each sum over one axis ranges
  over the dropped coordinate, and the sum over the two sample axes over both; the pointwise operations act entry by
  entry. Read this way every stage is the plain function of Proof/Spec.lean of the arguments' entries, operation for
  operation: the last stage at (b, t, d) is `out` there. The spreads' softplus and the weights' softmax stay the
  stages that compute them, unopened.
-/
import proofs.«173853_j24558622998529_1_alg».proof.Proof.Gen.ReferenceIdeal.Read
import proofs.«173853_j24558622998529_1_alg».proof.Proof.Spec
import proofs.«173853_j24558622998529_1_alg».proof.Proof.LibMidAxesSum

noncomputable section

namespace Cert.ReferenceIdeal.RefValue

open Cert.ReferenceIdeal Cert.ReferenceIdeal.Gen Idealize.ShloMosaic Idealize.ShloMosaic.ValueIdx Cert.Posterior Cert.Lib.MidAxesSum

/-! ## Indices: each layout operation's source index at an index given by its coordinates -/

/-- Two indices are equal when their coordinates are, axis by axis. -/
local macro "coords1" : tactic => `(tactic| (funext a; match a with | ⟨0, _⟩ => rfl))
local macro "coords2" : tactic => `(tactic| (funext a; match a with | ⟨0, _⟩ => rfl | ⟨1, _⟩ => rfl))
local macro "coords3" : tactic => `(tactic| (funext a; match a with | ⟨0, _⟩ => rfl | ⟨1, _⟩ => rfl | ⟨2, _⟩ => rfl))
local macro "coords4" : tactic => `(tactic| (funext a; match a with | ⟨0, _⟩ => rfl | ⟨1, _⟩ => rfl | ⟨2, _⟩ => rfl | ⟨3, _⟩ => rfl))

theorem idx14 (k : Fin 8) (b : Fin 16) (t : Fin 512) (d : Fin 256) :
    Read.idx_main_v14 (ix4 k b t d) = ix4 (0 : Fin 1) b t d := by coords4
theorem idx32 (k : Fin 8) (b : Fin 16) (t : Fin 512) (d : Fin 256) :
    Read.idx_main_v32 (ix4 k b t d) = ix4 (0 : Fin 1) b t d := by coords4
theorem idx41 (k : Fin 8) (b : Fin 16) (t : Fin 512) (d : Fin 256) :
    Read.idx_main_v41 (ix4 k b t d) = ix4 (0 : Fin 1) b t d := by coords4
theorem idx48 (k : Fin 8) (b : Fin 16) (t : Fin 512) (d : Fin 256) :
    Read.idx_main_v48 (ix4 k b t d) = ix4 (0 : Fin 1) b t d := by coords4
theorem idx12 (b : Fin 16) (t : Fin 512) (d : Fin 256) :
    Read.idx_main_v12 (ix4 (0 : Fin 1) b t d) = ix3 b t d := by coords3
theorem idx29 (b : Fin 16) (t : Fin 512) (d : Fin 256) :
    Read.idx_main_v29 (ix4 (0 : Fin 1) b t d) = ix3 b t d := by coords3
theorem idx40 (b : Fin 16) (t : Fin 512) (d : Fin 256) :
    Read.idx_main_v40 (ix4 (0 : Fin 1) b t d) = ix3 b t d := by coords3
theorem idx47 (b : Fin 16) (t : Fin 512) (d : Fin 256) :
    Read.idx_main_v47 (ix4 (0 : Fin 1) b t d) = ix3 b t d := by coords3
theorem idx15 (k : Fin 8) (b : Fin 16) (t : Fin 512) (d : Fin 256) :
    Read.idx_main_v15 (ix4 k b t d) = ix4 k (0 : Fin 1) (0 : Fin 1) d := by coords4
theorem idx23 (k : Fin 8) (b : Fin 16) (t : Fin 512) (d : Fin 256) :
    Read.idx_main_v23 (ix4 k b t d) = ix4 k (0 : Fin 1) (0 : Fin 1) d := by coords4
theorem idx38 (k : Fin 8) (b : Fin 16) (t : Fin 512) (d : Fin 256) :
    Read.idx_main_v38 (ix4 k b t d) = ix4 k (0 : Fin 1) (0 : Fin 1) d := by coords4
theorem idx13 (k : Fin 8) (d : Fin 256) :
    Read.idx_main_v13 (ix4 k (0 : Fin 1) (0 : Fin 1) d) = ix2 k d := by coords2
theorem idx20 (k : Fin 8) (d : Fin 256) :
    Read.idx_main_v20 (ix4 k (0 : Fin 1) (0 : Fin 1) d) = ix2 k d := by coords2
theorem idx35 (k : Fin 8) (d : Fin 256) :
    Read.idx_main_v35 (ix4 k (0 : Fin 1) (0 : Fin 1) d) = ix2 k d := by coords2
theorem idx26 (k : Fin 8) (b : Fin 16) (t : Fin 512) (d : Fin 256) :
    Read.idx_main_v26 (ix4 k b t d) = ix4 k (0 : Fin 1) (0 : Fin 1) (0 : Fin 1) := by coords4
theorem idx65 (k : Fin 8) (b : Fin 16) (t : Fin 512) (d : Fin 256) :
    Read.idx_main_v65 (ix4 k b t d) = ix4 k (0 : Fin 1) (0 : Fin 1) (0 : Fin 1) := by coords4
theorem idx11 (k : Fin 8) :
    Read.idx_main_v11 (ix4 k (0 : Fin 1) (0 : Fin 1) (0 : Fin 1)) = ix1 k := by coords1
theorem idx28 (b : Fin 16) (t : Fin 512) (d : Fin 256) (k : Fin 8) :
    Read.idx_main_v28 (ix3 b t d) k = ix4 k b t d := by coords4
theorem idx68 (b : Fin 16) (t : Fin 512) (d : Fin 256) (k : Fin 8) :
    Read.idx_main_v68 (ix3 b t d) k = ix4 k b t d := by coords4
theorem idx43 (k : Fin 8) (b : Fin 16) (d : Fin 256) (t : Fin 512) :
    Read.idx_main_v43 (ix3 k b d) t = ix4 k b t d := by coords4
theorem idx53 (k : Fin 8) (b : Fin 16) (d : Fin 256) (t : Fin 512) :
    Read.idx_main_v53 (ix3 k b d) t = ix4 k b t d := by coords4
theorem idx44 (k : Fin 8) (b : Fin 16) (d : Fin 256) :
    Read.idx_main_v44 (ix4 k b (0 : Fin 1) d) = ix3 k b d := by coords3
theorem idx54 (k : Fin 8) (b : Fin 16) (d : Fin 256) :
    Read.idx_main_v54 (ix4 k b (0 : Fin 1) d) = ix3 k b d := by coords3
theorem idx49 (k : Fin 8) (b : Fin 16) (t : Fin 512) (d : Fin 256) :
    Read.idx_main_v49 (ix4 k b t d) = ix4 k b (0 : Fin 1) d := by coords4
theorem idx60 (k : Fin 8) (b : Fin 16) (t : Fin 512) (d : Fin 256) :
    Read.idx_main_v60 (ix4 k b t d) = ix4 k b (0 : Fin 1) d := by coords4
/-- The reshape [8,1] → [8] reads entry k at (k, 0): the quotient of k by the unit extent is k. -/
theorem idx10 (k : Fin 8) : Read.idx_main_v10 (ix1 k) = ix2 k (0 : Fin 1) := by
  funext a
  match a with
  | ⟨0, _⟩ => exact Fin.ext (Nat.div_one _)
  | ⟨1, _⟩ => rfl

/-! ## The start value of every host sum is the zero word -/

theorem cst4_zero (i : S_.Idx) : Read.val_main_cst_4 (F := Ideal) i = 0 := Ideal.ofBits_zero_f32
theorem cst6_zero (i : S_.Idx) : Read.val_main_cst_6 (F := Ideal) i = 0 := Ideal.ofBits_zero_f32
theorem cst8_zero (i : S_.Idx) : Read.val_main_cst_8 (F := Ideal) i = 0 := Ideal.ofBits_zero_f32
theorem cst10_zero (i : S_.Idx) : Read.val_main_cst_10 (F := Ideal) i = 0 := Ideal.ofBits_zero_f32
theorem cst14_zero (i : S_.Idx) : Read.val_main_cst_14 (F := Ideal) i = 0 := Ideal.ofBits_zero_f32

/-! ## The stages at an index -/

section Stages

variable (x0 : FVec Ideal S16x512x256 .f32) (x1 x2 : FVec Ideal S8x256 .f32) (x3 : FVec Ideal S8x1 .f32)

/-- The reference's arguments as functions of coordinates: the samples, the centres, the spreads (after the softplus,
    kept as the stage that computes it) and the weights (after the softmax, likewise). -/
abbrev X (b : Fin 16) (t : Fin 512) (d : Fin 256) : EReal := x0 (ix3 b t d)
abbrev Mn (k : Fin 8) (d : Fin 256) : EReal := x1 (ix2 k d)
abbrev Vr (k : Fin 8) (d : Fin 256) : EReal := Read.val_main_v0 (F := Ideal) x2 (ix2 k d)
abbrev Pr (k : Fin 8) : EReal := Read.val_main_v9 (F := Ideal) x3 (ix2 k (0 : Fin 1))

/-- The samples broadcast over the clusters read the sample. -/
theorem v14_at (k : Fin 8) (b : Fin 16) (t : Fin 512) (d : Fin 256) : Read.val_main_v14 (F := Ideal) x0 (ix4 k b t d) = x0 (ix3 b t d) := by
  rw [Read.val_main_v14_apply, idx14, Read.val_main_v12_apply, idx12]
theorem v41_at (k : Fin 8) (b : Fin 16) (t : Fin 512) (d : Fin 256) : Read.val_main_v41 (F := Ideal) x0 (ix4 k b t d) = x0 (ix3 b t d) := by
  rw [Read.val_main_v41_apply, idx41, Read.val_main_v40_apply, idx40]
theorem v48_at (k : Fin 8) (b : Fin 16) (t : Fin 512) (d : Fin 256) : Read.val_main_v48 (F := Ideal) x0 (ix4 k b t d) = x0 (ix3 b t d) := by
  rw [Read.val_main_v48_apply, idx48, Read.val_main_v47_apply, idx47]
/-- The centres broadcast over batch entries and rows read the centre. -/
theorem v15_at (k : Fin 8) (b : Fin 16) (t : Fin 512) (d : Fin 256) : Read.val_main_v15 (F := Ideal) x1 (ix4 k b t d) = x1 (ix2 k d) := by
  rw [Read.val_main_v15_apply, idx15, Read.val_main_v13_apply, idx13]
/-- The splat of −½. -/
theorem v17_at (k : Fin 8) (b : Fin 16) (t : Fin 512) (d : Fin 256) : Read.val_main_v17 (F := Ideal) (ix4 k b t d) = negHalf := by
  rw [Read.val_main_v17_apply]; rfl
/-- The spreads plus ε, broadcast. -/
theorem v23_at (k : Fin 8) (b : Fin 16) (t : Fin 512) (d : Fin 256) :
    Read.val_main_v23 (F := Ideal) x2 (ix4 k b t d) = Read.val_main_v0 (F := Ideal) x2 (ix2 k d) + eps := by
  rw [Read.val_main_v23_apply, idx23, Read.val_main_v22_apply, Read.val_main_v20_apply, idx20, Read.val_main_v21_apply]; rfl
/-- The weights, re-laid as a vector and broadcast, read the weight of the cluster. -/
theorem v11_at (k : Fin 8) : Read.val_main_v11 (F := Ideal) x3 (ix4 k (0 : Fin 1) (0 : Fin 1) (0 : Fin 1))
    = Read.val_main_v9 (F := Ideal) x3 (ix2 k (0 : Fin 1)) := by
  rw [Read.val_main_v11_apply, idx11, Read.val_main_v10_apply, idx10]
theorem v26_at (k : Fin 8) (b : Fin 16) (t : Fin 512) (d : Fin 256) :
    Read.val_main_v26 (F := Ideal) x3 (ix4 k b t d) = Read.val_main_v9 (F := Ideal) x3 (ix2 k (0 : Fin 1)) := by
  rw [Read.val_main_v26_apply, idx26, v11_at]

/-- The weighted likelihood. -/
theorem lik_at (k : Fin 8) (b : Fin 16) (t : Fin 512) (d : Fin 256) :
    Read.val_main_v27 (F := Ideal) x0 x1 x2 x3 (ix4 k b t d) = lik (X x0 b) (Mn x1) (Vr x2) (Pr x3) k t d := by
  rw [Read.val_main_v27_apply, Read.val_main_v25_apply, Read.val_main_v24_apply, Read.val_main_v19_apply,
    Read.val_main_v18_apply, Read.val_main_v16_apply, v26_at, v23_at, v17_at, v14_at, v15_at]
  rfl

/-- The likelihoods summed over the clusters. -/
theorem v28_at (b : Fin 16) (t : Fin 512) (d : Fin 256) :
    Read.val_main_v28 (F := Ideal) x0 x1 x2 x3 (ix3 b t d) = ∑ k : Fin 8, lik (X x0 b) (Mn x1) (Vr x2) (Pr x3) k t d := by
  rw [Read.val_main_v28_apply, cst4_zero, zero_add]
  refine Finset.sum_congr rfl fun k _ => ?_
  rw [idx28, lik_at]

theorem v32_at (k : Fin 8) (b : Fin 16) (t : Fin 512) (d : Fin 256) :
    Read.val_main_v32 (F := Ideal) x0 x1 x2 x3 (ix4 k b t d) = (∑ k' : Fin 8, lik (X x0 b) (Mn x1) (Vr x2) (Pr x3) k' t d) + eps := by
  rw [Read.val_main_v32_apply, idx32, Read.val_main_v31_apply, Read.val_main_v29_apply, idx29, v28_at,
    Read.val_main_v30_apply]
  rfl

/-- The responsibility. -/
theorem tau_at (k : Fin 8) (b : Fin 16) (t : Fin 512) (d : Fin 256) :
    Read.val_main_v33 (F := Ideal) x0 x1 x2 x3 (ix4 k b t d) = tau (X x0 b) (Mn x1) (Vr x2) (Pr x3) k t d := by
  rw [Read.val_main_v33_apply, lik_at, v32_at]
  rfl

/-- The column masses: the host sum over batch entries and rows. -/
theorem v34_at (k : Fin 8) (d : Fin 256) :
    Read.val_main_v34 (F := Ideal) x0 x1 x2 x3 (ix2 k d) = total (X x0) (Mn x1) (Vr x2) (Pr x3) k d := by
  unfold Read.val_main_v34
  refine (hostReduceAdd_mid2_apply (Read.val_main_v33 (F := Ideal) x0 x1 x2 x3) _ _ k d).trans ?_
  rw [cst6_zero, zero_add]
  exact Finset.sum_congr rfl fun b _ => Finset.sum_congr rfl fun t _ => tau_at x0 x1 x2 x3 k b t d

theorem v38_at (k : Fin 8) (b : Fin 16) (t : Fin 512) (d : Fin 256) :
    Read.val_main_v38 (F := Ideal) x0 x1 x2 x3 (ix4 k b t d) = total (X x0) (Mn x1) (Vr x2) (Pr x3) k d + eps := by
  rw [Read.val_main_v38_apply, idx38, Read.val_main_v37_apply, Read.val_main_v35_apply, idx35, v34_at,
    Read.val_main_v36_apply]
  rfl

/-- The normalised responsibility. -/
theorem hat_at (k : Fin 8) (b : Fin 16) (t : Fin 512) (d : Fin 256) :
    Read.val_main_v39 (F := Ideal) x0 x1 x2 x3 (ix4 k b t d) = hat (X x0 b) (Mn x1) (Vr x2) (Pr x3) (total (X x0) (Mn x1) (Vr x2) (Pr x3)) k t d := by
  rw [Read.val_main_v39_apply, tau_at, v38_at]
  rfl

/-- The normalised responsibility times the sample. -/
theorem wx_at (k : Fin 8) (b : Fin 16) (t : Fin 512) (d : Fin 256) :
    Read.val_main_v42 (F := Ideal) x0 x1 x2 x3 (ix4 k b t d) = wx (X x0 b) (Mn x1) (Vr x2) (Pr x3) (total (X x0) (Mn x1) (Vr x2) (Pr x3)) k t d := by
  rw [Read.val_main_v42_apply, hat_at, v41_at]
  rfl

theorem v43_at (k : Fin 8) (b : Fin 16) (d : Fin 256) :
    Read.val_main_v43 (F := Ideal) x0 x1 x2 x3 (ix3 k b d) = ∑ t : Fin 512, wx (X x0 b) (Mn x1) (Vr x2) (Pr x3) (total (X x0) (Mn x1) (Vr x2) (Pr x3)) k t d := by
  rw [Read.val_main_v43_apply, cst8_zero, zero_add]
  refine Finset.sum_congr rfl fun t _ => ?_
  rw [idx43, wx_at]

/-- The first row average. -/
theorem v46_at (k : Fin 8) (b : Fin 16) (d : Fin 256) :
    Read.val_main_v46 (F := Ideal) x0 x1 x2 x3 (ix4 k b (0 : Fin 1) d) = mean1 (X x0 b) (Mn x1) (Vr x2) (Pr x3) (total (X x0) (Mn x1) (Vr x2) (Pr x3)) k d := by
  rw [Read.val_main_v46_apply, Read.val_main_v44_apply, idx44, v43_at, Read.val_main_v45_apply]
  rfl

theorem v50_at (k : Fin 8) (b : Fin 16) (t : Fin 512) (d : Fin 256) :
    Read.val_main_v50 (F := Ideal) x0 x1 x2 x3 (ix4 k b t d) = x0 (ix3 b t d) - mean1 (X x0 b) (Mn x1) (Vr x2) (Pr x3) (total (X x0) (Mn x1) (Vr x2) (Pr x3)) k d := by
  rw [Read.val_main_v50_apply, v48_at, Read.val_main_v49_apply, idx49, v46_at]
  rfl

theorem v52_at (k : Fin 8) (b : Fin 16) (t : Fin 512) (d : Fin 256) :
    Read.val_main_v52 (F := Ideal) x0 x1 x2 x3 (ix4 k b t d)
      = (hat (X x0 b) (Mn x1) (Vr x2) (Pr x3) (total (X x0) (Mn x1) (Vr x2) (Pr x3)) k t d * wx (X x0 b) (Mn x1) (Vr x2) (Pr x3) (total (X x0) (Mn x1) (Vr x2) (Pr x3)) k t d) * wx (X x0 b) (Mn x1) (Vr x2) (Pr x3) (total (X x0) (Mn x1) (Vr x2) (Pr x3)) k t d := by
  rw [Read.val_main_v52_apply, Read.val_main_v51_apply, hat_at, wx_at]
  rfl

theorem v53_at (k : Fin 8) (b : Fin 16) (d : Fin 256) :
    Read.val_main_v53 (F := Ideal) x0 x1 x2 x3 (ix3 k b d)
      = ∑ t : Fin 512, (hat (X x0 b) (Mn x1) (Vr x2) (Pr x3) (total (X x0) (Mn x1) (Vr x2) (Pr x3)) k t d * wx (X x0 b) (Mn x1) (Vr x2) (Pr x3) (total (X x0) (Mn x1) (Vr x2) (Pr x3)) k t d) * wx (X x0 b) (Mn x1) (Vr x2) (Pr x3) (total (X x0) (Mn x1) (Vr x2) (Pr x3)) k t d := by
  rw [Read.val_main_v53_apply, cst10_zero, zero_add]
  refine Finset.sum_congr rfl fun t _ => ?_
  rw [idx53, v52_at]

/-- The root of the second row average plus ε. -/
theorem v60_at (k : Fin 8) (b : Fin 16) (t : Fin 512) (d : Fin 256) :
    Read.val_main_v60 (F := Ideal) x0 x1 x2 x3 (ix4 k b t d) = Ideal.sqrt (mean2 (X x0 b) (Mn x1) (Vr x2) (Pr x3) (total (X x0) (Mn x1) (Vr x2) (Pr x3)) k d + eps) := by
  rw [Read.val_main_v60_apply, idx60, Read.val_main_v59_apply, Read.val_main_v58_apply, Read.val_main_v56_apply,
    Read.val_main_v54_apply, idx54, v53_at, Read.val_main_v55_apply, Read.val_main_v57_apply]
  rfl

theorem v61_at (k : Fin 8) (b : Fin 16) (t : Fin 512) (d : Fin 256) :
    Read.val_main_v61 (F := Ideal) x0 x1 x2 x3 (ix4 k b t d)
      = Ideal.div (x0 (ix3 b t d) - mean1 (X x0 b) (Mn x1) (Vr x2) (Pr x3) (total (X x0) (Mn x1) (Vr x2) (Pr x3)) k d) (Ideal.sqrt (mean2 (X x0 b) (Mn x1) (Vr x2) (Pr x3) (total (X x0) (Mn x1) (Vr x2) (Pr x3)) k d + eps)) := by
  rw [Read.val_main_v61_apply, v50_at, v60_at]
  rfl

/-- The root of the weight plus ε, broadcast. -/
theorem v65_at (k : Fin 8) (b : Fin 16) (t : Fin 512) (d : Fin 256) :
    Read.val_main_v65 (F := Ideal) x3 (ix4 k b t d) = Ideal.sqrt (Pr x3 k + eps) := by
  rw [Read.val_main_v65_apply, idx65, Read.val_main_v64_apply, Read.val_main_v63_apply, v11_at, Read.val_main_v62_apply]
  rfl

/-- One cluster's term of the result. -/
theorem v67_at (k : Fin 8) (b : Fin 16) (t : Fin 512) (d : Fin 256) :
    Read.val_main_v67 (F := Ideal) x0 x1 x2 x3 (ix4 k b t d)
      = Ideal.div (tau (X x0 b) (Mn x1) (Vr x2) (Pr x3) k t d) (Ideal.sqrt (Pr x3 k + eps))
        * Ideal.div (x0 (ix3 b t d) - mean1 (X x0 b) (Mn x1) (Vr x2) (Pr x3) (total (X x0) (Mn x1) (Vr x2) (Pr x3)) k d) (Ideal.sqrt (mean2 (X x0 b) (Mn x1) (Vr x2) (Pr x3) (total (X x0) (Mn x1) (Vr x2) (Pr x3)) k d + eps)) := by
  rw [Read.val_main_v67_apply, Read.val_main_v66_apply, tau_at, v65_at, v61_at]
  rfl

/-- The reference's result at (b, t, d) is the specification's. -/
theorem ref_at (b : Fin 16) (t : Fin 512) (d : Fin 256) :
    Read.val_main_v68 (F := Ideal) x0 x1 x2 x3 (ix3 b t d)
      = Cert.Posterior.out (fun b t d => x0 (ix3 b t d)) (fun k d => x1 (ix2 k d))
          (fun k d => Read.val_main_v0 (F := Ideal) x2 (ix2 k d))
          (fun k => Read.val_main_v9 (F := Ideal) x3 (ix2 k (0 : Fin 1))) b t d := by
  rw [Read.val_main_v68_apply, cst14_zero, zero_add]
  unfold Cert.Posterior.out Cert.Posterior.outB
  exact Finset.sum_congr rfl fun k _ =>
    (congrArg (Read.val_main_v67 (F := Ideal) x0 x1 x2 x3) (idx68 b t d k)).trans (v67_at x0 x1 x2 x3 k b t d)

/-- The reference's result, as a whole array. -/
theorem ref_eq :
    Read.val_main_v68 (F := Ideal) x0 x1 x2 x3
      = fun i => Cert.Posterior.out (fun b t d => x0 (ix3 b t d)) (fun k d => x1 (ix2 k d))
          (fun k d => Read.val_main_v0 (F := Ideal) x2 (ix2 k d))
          (fun k => Read.val_main_v9 (F := Ideal) x3 (ix2 k (0 : Fin 1))) (i 0) (i 1) (i 2) :=
  funext fun i => (congrArg (Read.val_main_v68 (F := Ideal) x0 x1 x2 x3) (eq_ix3 i)).trans (ref_at x0 x1 x2 x3 (i 0) (i 1) (i 2))

end Stages

end Cert.ReferenceIdeal.RefValue

end
-- ==== Proof.lean ====
/-
  The certificate of the cluster-posterior normalisation kernel against its reference.

  Both programs compute, for every sample x of a [16, 512, 256] array and eight clusters with centres, spreads (through
  a softplus) and weights (through a softmax), the responsibilities tau, their column masses (the sum of tau over all
  16 · 512 samples of a feature column), and from these the standardised, weighted cluster sum (Proof/Spec.lean).
  The kernel does it in two launches over the sixteen batch entries: the first accumulates the column masses entry by
  entry into one resident block, the second forms each entry's result block from that entry's samples and the column
  masses. The reference does it on whole [8, 16, 512, 256] arrays, the column masses by ONE sum over the two sample
  axes. On the extended reals the accumulated chain ((0 + s₀) + s₁) + … + s₁₅ of the entries' row sums IS that double
  sum — addition there is commutative and associative, no finiteness is needed —, and every other operation is the
  same operation in the same order on both sides; so the two results are equal entry by entry (`algebraic`).

  The kernel's result array is read off its run in Proof/KernelRun.lean (the run with the result named),
  Proof/Region0Value.lean (the accumulated column masses), Proof/Region1Value.lean (the result blocks tile the array),
  Proof/HostValue.lean (the host chains before the launches) and Proof/BodyValue.lean (the two bodies' arithmetic at an
  entry), assembled in Proof/KernelValue.lean; the reference's in Proof/RefValue.lean. The three frames are the
  programs' runs with the results dropped; the idealization rewrote nothing, so `preserves` is trivial.
-/
import proofs.«173853_j24558622998529_1_alg».proof.Defs
import proofs.«173853_j24558622998529_1_alg».proof.Proof.Gen.Kernel
import proofs.«173853_j24558622998529_1_alg».proof.Proof.Gen.Kernel.Skeleton
import proofs.«173853_j24558622998529_1_alg».proof.Proof.Gen.Kernel.Launch
import proofs.«173853_j24558622998529_1_alg».proof.Proof.Gen.Kernel.Points
import proofs.«173853_j24558622998529_1_alg».proof.Proof.Gen.Kernel.Frame
import proofs.«173853_j24558622998529_1_alg».proof.Proof.Gen.KernelIdeal
import proofs.«173853_j24558622998529_1_alg».proof.Proof.Gen.KernelIdeal.Skeleton
import proofs.«173853_j24558622998529_1_alg».proof.Proof.Gen.KernelIdeal.Launch
import proofs.«173853_j24558622998529_1_alg».proof.Proof.Gen.KernelIdeal.Points
import proofs.«173853_j24558622998529_1_alg».proof.Proof.Gen.KernelIdeal.Frame
import proofs.«173853_j24558622998529_1_alg».proof.Proof.Gen.ReferenceIdeal
import proofs.«173853_j24558622998529_1_alg».proof.Proof.Gen.ReferenceIdeal.Run
import proofs.«173853_j24558622998529_1_alg».proof.Proof.Gen.ReferenceIdeal.Read
import proofs.«173853_j24558622998529_1_alg».proof.Proof.Gen.Pre_finite_inputs
import proofs.«173853_j24558622998529_1_alg».proof.Proof.KernelValue
import proofs.«173853_j24558622998529_1_alg».proof.Proof.BodyValue
import proofs.«173853_j24558622998529_1_alg».proof.Proof.RefValue
import Idealize.ShloMosaic.Adequacy
import Idealize.ShloMosaic.Init

noncomputable section

namespace Cert.Proof

open Idealize.ShloMosaic Idealize.SL.Sem Cert.Kernel

/-- The word-level kernel runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the extended reals the kernel's result array ends at `whole` of its arguments and the reference's at its last
    stage of arguments that agree: the same function, entry by entry. -/
theorem algebraic : Cert.algebraic_KernelIdeal_ReferenceIdeal := by
  intro m ρ m' ρ' _ hagree
  refine ⟨_, Cert.KernelIdeal.KernelValue.run m ρ Cert.KernelIdeal.BodyValue.pay0_apply
    Cert.KernelIdeal.BodyValue.pay1_apply, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v68_eq, Cert.ReferenceIdeal.RefValue.ref_eq, (hagree c).1, (hagree c).2.1,
    (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
